-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg8 : FVec F S128 .f32) (main_arg16 : FVec F S128 .f32) (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  let main_cst_40 : FVec F S_ .f32 := constant S_ .f32 0x00000000#32
  let main_v104 : FVec F S128 .f32 := broadcastInDim S128 ![] bcast_S_S128 main_cst_40
  let main_v105 : IVec S128 1 := cmpf .oge main_arg8 main_v104
  let main_c_41 : IVec S_ 1 := constantI S_ 1 1#1
  let main_v106 : IVec S_ 1 := (fun x v => Host.reduce IntOp.andi x v reducesTo_S128_S_d0 h_S_) main_v105 main_c_41
  let main_v107 : IVec S_ 1 := andi main_v103 main_v106
  let main_cst_42 : FVec F S_ .f32 := constant S_ .f32 0x00000000#32
  let main_v108 : FVec F S128 .f32 := broadcastInDim S128 ![] bcast_S_S128 main_cst_42
  let main_v109 : IVec S128 1 := cmpf .oge main_arg16 main_v108
  let main_c_43 : IVec S_ 1 := constantI S_ 1 1#1
  let main_v110 : IVec S_ 1 := (fun x v => Host.reduce IntOp.andi x v reducesTo_S128_S_d0 h_S_) main_v109 main_c_43
  let main_v111 : IVec S_ 1 := andi main_v107 main_v110
  main_v111

def fn_part5 {F : FTy → Type} [FloatOps F] (main_arg8 : FVec F S128 .f32) (main_arg16 : FVec F S128 .f32) (main_arg20 : FVec F S128 .f32) (main_arg21 : FVec F S128x2 .f32) (main_arg22 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x2 .f32 := Host.absf main_arg21
  let main_cst_36 : FVec F S_ .f32 := constant S_ .f32 0x7F800000#32
  let main_v95 : FVec F S128x2 .f32 := broadcastInDim S128x2 ![] bcast_S_S128x2 main_cst_36
  let main_v96 : IVec S128x2 1 := cmpf .olt main_v94 main_v95
  let main_c_37 : IVec S_ 1 := constantI S_ 1 1#1
  let main_v97 : IVec S_ 1 := (fun x v => Host.reduce IntOp.andi x v reducesTo_S128x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_arg8 main_arg16 main_v98 main_v101 main_c_39

def fn_part4 {F : FTy → Type} [FloatOps F] (main_arg8 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg8 main_arg16 main_arg20 main_arg21 main_arg22 main_v83 main_v84 main_cst_32

def fn_part3 {F : FTy → Type} [FloatOps F] (main_arg8 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg16 main_arg17 main_arg18 main_arg19 main_arg20 main_arg21 main_arg22 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S800000x1 : Shape := ⟨2, ![800000, 1]⟩
abbrev S800000x128 : Shape := ⟨2, ![800000, 128]⟩
abbrev S5000x128 : Shape := ⟨2, ![5000, 128]⟩
abbrev S50000x1 : Shape := ⟨2, ![50000, 1]⟩
abbrev S1x2 : Shape := ⟨2, ![1, 2]⟩

abbrev nBuf : Space → Nat
  | .hbm => 100
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x2, .f32⟩
  | .hbm, ⟨22, _⟩ => ⟨S2, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S128x128, .f32⟩
  | .hbm, ⟨34, _⟩ => ⟨S128x128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S128x128, .bf16⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S50000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S128x128, .f32⟩
  | .hbm, ⟨63, _⟩ => ⟨S128x128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S128x128, .bf16⟩
  | .hbm, ⟨81, _⟩ => ⟨S128x128, .bf16⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S128x128, .f32⟩
  | .hbm, ⟨87, _⟩ => ⟨S50000x1, .i32⟩
  | .hbm, ⟨88, _⟩ => ⟨S128x128, .f32⟩
  | .hbm, ⟨89, _⟩ => ⟨S128x128, .f32⟩
  | .hbm, ⟨90, _⟩ => ⟨S1x128, .f32⟩
  | .hbm, ⟨91, _⟩ => ⟨S128x128, .f32⟩
  | .hbm, ⟨92, _⟩ => ⟨S128x128, .f32⟩
  | .hbm, ⟨93, _⟩ => ⟨S_, .f32⟩
  | .hbm, ⟨94, _⟩ => ⟨S128x128, .f32⟩
  | .hbm, ⟨95, _⟩ => ⟨S128x128, .f32⟩
  | .hbm, ⟨96, _⟩ => ⟨S128x2, .f32⟩
  | .hbm, ⟨97, _⟩ => ⟨S1x2, .f32⟩
  | .hbm, ⟨98, _⟩ => ⟨S128x2, .f32⟩
  | .hbm, ⟨99, _⟩ => ⟨S128x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_3 : Ref sig .tc := ⟨.hbm, 67, rfl⟩
abbrev main_v39 : Ref sig .tc := ⟨.hbm, 68, rfl⟩
abbrev main_v40 : Ref sig .tc := ⟨.hbm, 69, rfl⟩
abbrev main_c_4 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_5 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call0_cst : Ref sig .tc := ⟨.hbm, 93, rfl⟩
abbrev main_call0_v0 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S50000_S50000x1_0 : S50000.BroadcastsInDim S50000x1 (![0] : Fin 1 → Fin S50000x1.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x2, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S128x128, .f32⟩
  | 117 => ⟨S50000x1, .i32⟩
  | 118 => ⟨S128x128, .f32⟩
  | 119 => ⟨S128x128, .f32⟩
  | 120 => ⟨S1x128, .f32⟩
  | 121 => ⟨S128x128, .f32⟩
  | 122 => ⟨S128x128, .f32⟩
  | 123 => ⟨S_, .f32⟩
  | 124 => ⟨S128x128, .f32⟩
  | 125 => ⟨S128x128, .f32⟩
  | 126 => ⟨S128x2, .f32⟩
  | 127 => ⟨S1x2, .f32⟩
  | _ => ⟨S50000x128, .f32⟩

abbrev hbmTy0_1 (i : Nat) : BufTy := match i % 128 with
  | 0 => ⟨S128x2, .f32⟩
  | 1 => ⟨S128x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call0_cst : Ref sig .tc := ⟨.hbm, 61, rfl⟩
abbrev main_call0_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_cst : Ref sig .tc := ⟨.hbm, 68, rfl⟩
abbrev main_call1_v0 : Ref sig .tc := ⟨.hbm, 69, rfl⟩
abbrev main_v39 : Ref sig .tc := ⟨.hbm, 70, rfl⟩
abbrev main_c_2 : Ref sig .tc := ⟨.hbm, 71, rfl⟩
abbrev main_v40 : Ref sig .tc := ⟨.hbm, 72, rfl⟩
abbrev main_v41 : Ref sig .tc := ⟨.hbm, 73, rfl⟩
abbrev main_c_3 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_cst : Ref sig .tc := ⟨.hbm, 105, rfl⟩
abbrev main_call2_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call3_cst : Ref sig .tc := ⟨.hbm, 112, rfl⟩
abbrev main_call3_v0 : Ref sig .tc := ⟨.hbm, 113, rfl⟩
abbrev main_v75 : Ref sig .tc := ⟨.hbm, 114, rfl⟩
abbrev main_cst_6 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call4_cst : Ref sig .tc := ⟨.hbm, 123, rfl⟩
abbrev main_call4_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KernelRun.lean ====
/- The kernel program's run with its result named: on every core the result buffer ends at the last segment
   boundary's contents, and every argument array ends as launched. The final thread state holds every unscoped
   buffer at that boundary's contents; the result buffer is one of them, so it is read off the final state as the
   arguments are. -/
import proofs.«116654_j81243601371608_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of @main on the
    TensorCores terminates, nothing faulting, and in every final state the result buffer holds the last boundary's
    contents at it (the fold of every host stretch and every region's write-backs from the launch memory), and the
    argument arrays are as launched. -/
theorem run_value : θ_run defs (onTc (τ := τ) (main (F := F))) ⟨m, fun _ => 0, ρ⟩ (fun r => ∀ c : Dev nD,
      r.2.mem ((c.tc : Thread nD τ).loc main_v65) = Gen.W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c)⟩)

end Cert.KernelIdeal.RunValue

end
-- ==== Proof.KernelHost.lean ====
/- The host stretches of the kernel program read at the buffers its two kernel regions and its result use: what
   each region's six operand arrays hold when the region is entered, and what the result buffer holds at the end,
   each as the host operations' composed term of the argument arrays (and, past a region, of that region's output
   array). Everything at the ideal reals. -/
import proofs.«116654_j81243601371608_2_alg».proof.Proof.Gen.KernelIdeal.Frame
import Idealize.ShloMosaic.Lib.StableHlo.Run
import Idealize.ShloMosaic.PureOps.Ideal

set_option maxRecDepth 16384

noncomputable section

namespace Cert.KernelIdeal.HostRead

open Cert.KernelIdeal Cert.KernelIdeal.Gen
open Idealize.ShloMosaic Idealize.ShloMosaic.TcCoe Idealize.ShloMosaic.Tactic
open Idealize.SL.Sem Idealize.ShloMosaic.StableHlo

/-! ## The terms the host operations compose -/

/-- The edge list's first row as a vector: every edge's source node. -/
def edgeSrc (E : IVec S2x800000 32) : IVec S800000 32 :=
  shapeCast S800000 (extractStridedSlice S1x800000 ![0, 0] E slices_S2x800000_S1x800000_0_0) shapeCasts_S1x800000_S800000

/-- The edge list's second row as a vector: every edge's destination node. -/
def edgeDst (E : IVec S2x800000 32) : IVec S800000 32 :=
  shapeCast S800000 (extractStridedSlice S1x800000 ![1, 0] E slices_S2x800000_S1x800000_1_0) shapeCasts_S1x800000_S800000

/-- Node indices made non-negative (a negative index counts from the end: 50000 is added to it), as a column. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The neighbour aggregation of the node rows `X` along the edge list `E`: from zero, every edge adds its source
    node's row to its destination node's row. -/
def aggregate (X : FVec Ideal S50000x128 .f32) (E : IVec S2x800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (edgeDst E))
    (Host.gather gather_S50000x128_S800000x1_S800000x128_1_0_n_n_0_1_1128 X (wrapIdx (edgeSrc E)))

/-- The normalization's scale per channel: `g * rsqrt (v + ε)`. -/
def normScale (g v : FVec Ideal S128 .f32) : FVec Ideal S128 .f32 :=
  mulf (F := Ideal) g (Host.rsqrt (F := Ideal) (addf (F := Ideal) v (broadcastInDim S128 ![] bcast_S_S128 (constant (F := Ideal) S_ .f32 0x3727C5AC#32))))

/-- A weight matrix with the normalization's scale folded into its columns, rounded to bf16. -/
def foldedWeight (W : FVec Ideal S128x128 .f32) (g v : FVec Ideal S128 .f32) : FVec Ideal S128x128 .bf16 :=
  truncf (F := Ideal) .bf16 (mulf (F := Ideal) W (broadcastInDim S128x128 ![0, 1] bcast_S1x128_S128x128_0_1
    (broadcastInDim S1x128 ![1] bcast_S128_S1x128_1 (normScale g v)))) bitsLt_bf16_f32

/-- A bias with the normalization folded in, as a row: `(b - μ) * scale + β`. -/
def foldedBias (b mu g v beta : FVec Ideal S128 .f32) : FVec Ideal S1x128 .f32 :=
  shapeCast S1x128 (addf (F := Ideal) (mulf (F := Ideal) (subf (F := Ideal) b mu) (normScale g v)) beta) shapeCasts_S128_S1x128

/-- A weight matrix rounded to bf16. -/
def roundedWeight (W : FVec Ideal S128x128 .f32) : FVec Ideal S128x128 .bf16 :=
  truncf (F := Ideal) .bf16 W bitsLt_bf16_f32

/-- A bias as a row. -/
def biasRow (b : FVec Ideal S128 .f32) : FVec Ideal S1x128 .f32 := shapeCast S1x128 b shapeCasts_S128_S1x128

/-- The readout of the node rows `H`: pooled per graph (from zero, every node's row added to its graph's row), a
    linear layer with a rectifier, and the last linear layer. -/
def readout (H : FVec Ideal S50000x128 .f32) (batch : IVec S50000 32) (W1 : FVec Ideal S128x128 .f32)
    (b1 : FVec Ideal S128 .f32) (W2 : FVec Ideal S128x2 .f32) (b2 : FVec Ideal S2 .f32) : FVec Ideal S128x2 .f32 :=
  addf (F := Ideal)
    (Host.dotGeneral (F := Ideal) dot_S128x128_S128x2_S128x2_1_0_0_1_n_n none
      (maximumf (F := Ideal)
        (addf (F := Ideal)
          (Host.dotGeneral (F := Ideal) dot_S128x128_S128x128_S128x128_1_0_0_1_n_n none
            (Host.scatterAdd (F := Ideal) scatter_S128x128_S50000x1_S50000x128_1_0_0_1
              (broadcastInDim S128x128 ![] bcast_S_S128x128 (constant (F := Ideal) S_ .f32 0x00000000#32))
              (broadcastInDim S50000x1 ![0] bcast_S50000_S50000x1_0 batch) H)
            W1)
          (broadcastInDim S128x128 ![0, 1] bcast_S1x128_S128x128_0_1 (broadcastInDim S1x128 ![1] bcast_S128_S1x128_1 b1)))
        (broadcastInDim S128x128 ![] bcast_S_S128x128 (constant (F := Ideal) S_ .f32 0x00000000#32)))
      W2)
    (broadcastInDim S128x2 ![0, 1] bcast_S1x2_S128x2_0_1 (broadcastInDim S1x2 ![1] bcast_S2_S1x2_1 b2))

variable (m : (ℓ : Loc nD τ sig) → Buf (Elt Ideal) ℓ) (ρ : Dev nD → PrngReg) (c : Dev nD)

/-! ## Region 0's operand arrays when it is entered: the first stretch of host operations over the launch memory -/

theorem V1_main_arg0 : (Gen.V1 m ρ c main_arg0 : S50000x128.Idx → EReal) = (m ((c.tc : Thread nD τ).loc main_arg0)) := by
  simp only [Gen.V1, Gen.W1, Gen.hostOps0]; after_results_simp <;> rfl
theorem V1_main_v23 : (Gen.V1 m ρ c main_v23 : S50000x128.Idx → EReal) = aggregate (m ((c.tc : Thread nD τ).loc main_arg0)) (m ((c.tc : Thread nD τ).loc main_arg1)) := by
  simp only [Gen.V1, Gen.W1, Gen.hostOps0]; after_results_simp <;> rfl
theorem V1_main_v24 : (Gen.V1 m ρ c main_v24 : S128x128.Idx → EReal) = foldedWeight (m ((c.tc : Thread nD τ).loc main_arg3)) (m ((c.tc : Thread nD τ).loc main_arg5)) (m ((c.tc : Thread nD τ).loc main_arg8)) := by
  simp only [Gen.V1, Gen.W1, Gen.hostOps0]; after_results_simp <;> rfl
theorem V1_main_v26 : (Gen.V1 m ρ c main_v26 : S1x128.Idx → EReal) = foldedBias (m ((c.tc : Thread nD τ).loc main_arg4)) (m ((c.tc : Thread nD τ).loc main_arg7)) (m ((c.tc : Thread nD τ).loc main_arg5)) (m ((c.tc : Thread nD τ).loc main_arg8)) (m ((c.tc : Thread nD τ).loc main_arg6)) := by
  simp only [Gen.V1, Gen.W1, Gen.hostOps0]; after_results_simp <;> rfl
theorem V1_main_v25 : (Gen.V1 m ρ c main_v25 : S128x128.Idx → EReal) = roundedWeight (m ((c.tc : Thread nD τ).loc main_arg9)) := by
  simp only [Gen.V1, Gen.W1, Gen.hostOps0]; after_results_simp <;> rfl
theorem V1_main_v27 : (Gen.V1 m ρ c main_v27 : S1x128.Idx → EReal) = biasRow (m ((c.tc : Thread nD τ).loc main_arg10)) := by
  simp only [Gen.V1, Gen.W1, Gen.hostOps0]; after_results_simp <;> rfl

/-- Window 0's array: the node features, as launched. -/
theorem V1_0 : Gen.V1 m ρ c (Pipeline.arrRef spec0 0) = (m ((c.tc : Thread nD τ).loc main_arg0)) := V1_main_arg0 m ρ c
/-- Window 1's array: the neighbour aggregation of the node features. -/
theorem V1_1 : Gen.V1 m ρ c (Pipeline.arrRef spec0 1) = aggregate (m ((c.tc : Thread nD τ).loc main_arg0)) (m ((c.tc : Thread nD τ).loc main_arg1)) := V1_main_v23 m ρ c
/-- Window 2's array: the first layer's first weight, folded and rounded. -/
theorem V1_2 : Gen.V1 m ρ c (Pipeline.arrRef spec0 2) = foldedWeight (m ((c.tc : Thread nD τ).loc main_arg3)) (m ((c.tc : Thread nD τ).loc main_arg5)) (m ((c.tc : Thread nD τ).loc main_arg8)) := V1_main_v24 m ρ c
/-- Window 3's array: the first layer's first bias, folded, as a row. -/
theorem V1_3 : Gen.V1 m ρ c (Pipeline.arrRef spec0 3) = foldedBias (m ((c.tc : Thread nD τ).loc main_arg4)) (m ((c.tc : Thread nD τ).loc main_arg7)) (m ((c.tc : Thread nD τ).loc main_arg5)) (m ((c.tc : Thread nD τ).loc main_arg8)) (m ((c.tc : Thread nD τ).loc main_arg6)) := V1_main_v26 m ρ c
/-- Window 4's array: the first layer's second weight, rounded. -/
theorem V1_4 : Gen.V1 m ρ c (Pipeline.arrRef spec0 4) = roundedWeight (m ((c.tc : Thread nD τ).loc main_arg9)) := V1_main_v25 m ρ c
/-- Window 5's array: the first layer's second bias, as a row. -/
theorem V1_5 : Gen.V1 m ρ c (Pipeline.arrRef spec0 5) = biasRow (m ((c.tc : Thread nD τ).loc main_arg10)) := V1_main_v27 m ρ c

end Cert.KernelIdeal.HostRead

end
-- ==== Proof.LibRealEntries.lean ====
/-
  Extended reals that are ordinary real numbers: a small general library.

  On the extended reals the laws of a field fail at the infinities (distributivity, cancellation), so an algebraic
  identity between two programs is proved for entries that are real numbers. This file has the predicate "is a
  real number", its closure under sum, difference, product, maximum and finite sums, the inclusion of the reals
  commuting with finite sums, an affine map folded into a dense layer (the batch-normalisation fold) as an identity
  between real numbers, the inverse square root of a positive real, and the accumulating scatter of real updates
  into a real array.
-/
import Idealize.ShloMosaic.PureOps.Ideal.Laws
import Idealize.ShloMosaic.Lib.ValueIdx

noncomputable section

namespace Cert.Proof.Spec

open Idealize.ShloMosaic

/-- An extended real that is an ordinary real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW joining the two programs: the batch-normalisation affine map applied after a dense layer equals the
    dense layer with the map folded into its weights and bias — for real numbers. -/
theorem bn_fold {ι : Type*} [Fintype ι] (h w : ι → EReal) (b mu g β rs : EReal)
    (hh : ∀ j, IsReal (h j)) (hw : ∀ j, IsReal (w j)) (hb : IsReal b) (hmu : IsReal mu) (hg : IsReal g)
    (hβ : IsReal β) (hrs : IsReal rs) :
    (∑ j, h j * (w j * (g * rs))) + ((b - mu) * (g * rs) + β) = (((∑ j, h j * w j) + b) - mu) * rs * g + β := by
  choose hr hhr using hh
  choose wr hwr using hw
  obtain ⟨b', rfl⟩ := hb
  obtain ⟨mu', rfl⟩ := hmu
  obtain ⟨g', rfl⟩ := hg
  obtain ⟨β', rfl⟩ := hβ
  obtain ⟨rs', rfl⟩ := hrs
  simp only [hhr, hwr, ← EReal.coe_mul, ← EReal.coe_add, ← EReal.coe_sub, ← coe_sum]
  congr 1
  rw [show ∑ j, hr j * (wr j * (g' * rs')) = (∑ j, hr j * wr j) * (g' * rs') from by
    rw [Finset.sum_mul]; exact Finset.sum_congr rfl fun j _ => by ring]
  ring

/-- `(σ² + ε)^(−1/2)` is a real number when the variance is a non-negative real and `ε` a positive one. -/
theorem rsqrt_real {v e : EReal} (hv : IsReal v) (hv0 : 0 ≤ v) (he : ∃ r : ℝ, 0 < r ∧ e = (r : EReal)) :
    IsReal (Ideal.rsqrt (v + e)) := by
  obtain ⟨a, rfl⟩ := hv
  obtain ⟨r, hr, rfl⟩ := he
  have ha : 0 ≤ a := by exact_mod_cast hv0
  rw [← EReal.coe_add, Ideal.rsqrt_coe, if_neg (by linarith), if_neg (ne_of_gt (by linarith))]
  exact ⟨_, rfl⟩

/-- A scatter-add of real updates into a real array is real (each entry is the old entry plus a finite sum of updates). -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

end Cert.Proof.Spec

end
-- ==== Proof.Spec.lean ====
/-
  The arithmetic shared by both programs, stated on the extended reals with no program in sight.

  One message-passing layer computes, for a node's feature row `h` (the node's own row plus the sum of its
  in-neighbours' rows), a hidden row `relu (pre k)` and then `relu (∑ k, relu (pre k) · wb k c + bb c)`.
  The two programs differ only in how the hidden pre-activation `pre k` is spelt: one applies the
  batch-normalisation affine map after the first dense layer, `((∑ j, h j · w j k + b k) − μ k) · ρ k · γ k + β k`
  with `ρ k = (σ² k + ε)^(−1/2)`; the other folds that map into the layer, `∑ j, h j · (w j k · (γ k · ρ k)) +
  ((b k − μ k) · (γ k · ρ k) + β k)`. The two agree when every quantity is an ordinary real number
  (distributivity, which fails on the extended reals at infinities), and `ρ k` is real when the variance is
  non-negative because `ε > 0`.
-/
import proofs.«116654_j81243601371608_2_alg».proof.Proof.LibRealEntries

noncomputable section

namespace Cert.Proof.Spec

open Idealize.ShloMosaic

/-- The second half of a layer at output column `c`, from the hidden pre-activations. -/
def mlpOut (pre : Fin 128 → EReal) (wb : Fin 128 → Fin 128 → EReal) (bb : Fin 128 → EReal) (c : Fin 128) : EReal :=
  max ((∑ k : Fin 128, max (pre k) 0 * wb k c) + bb c) 0

theorem mlpOut_real (pre : Fin 128 → EReal) (wb : Fin 128 → Fin 128 → EReal) (bb : Fin 128 → EReal) (c : Fin 128)
    (hp : ∀ k, IsReal (pre k)) (hwb : ∀ k c, IsReal (wb k c)) (hbb : ∀ c, IsReal (bb c)) :
    IsReal (mlpOut pre wb bb c) :=
  (((IsReal.sum _ _ fun k _ => ((hp k).max IsReal.zero).mul (hwb k c))).add (hbb c)).max IsReal.zero

/-- The hidden pre-activation with the normalisation folded into the dense layer. -/
def preFolded (h : Fin 128 → EReal) (wf : Fin 128 → Fin 128 → EReal) (bf : Fin 128 → EReal) (k : Fin 128) : EReal :=
  (∑ j : Fin 128, h j * wf j k) + bf k

/-- The hidden pre-activation with the normalisation applied after the dense layer. -/
def preNormed (h : Fin 128 → EReal) (w : Fin 128 → Fin 128 → EReal) (b mu rs g β : Fin 128 → EReal) (k : Fin 128) : EReal :=
  (((∑ j : Fin 128, h j * w j k) + b k) - mu k) * rs k * g k + β k

theorem preFolded_eq_preNormed (h : Fin 128 → EReal) (w : Fin 128 → Fin 128 → EReal) (b mu rs g β : Fin 128 → EReal)
    (hh : ∀ j, IsReal (h j)) (hw : ∀ j k, IsReal (w j k)) (hb : ∀ k, IsReal (b k)) (hmu : ∀ k, IsReal (mu k))
    (hrs : ∀ k, IsReal (rs k)) (hg : ∀ k, IsReal (g k)) (hβ : ∀ k, IsReal (β k)) (k : Fin 128) :
    preFolded h (fun j k => w j k * (g k * rs k)) (fun k => (b k - mu k) * (g k * rs k) + β k) k
      = preNormed h w b mu rs g β k :=
  bn_fold h (fun j => w j k) (b k) (mu k) (g k) (β k) (rs k) hh (fun j => hw j k) (hb k) (hmu k) (hg k) (hβ k) (hrs k)

theorem preFolded_real (h : Fin 128 → EReal) (wf : Fin 128 → Fin 128 → EReal) (bf : Fin 128 → EReal) (k : Fin 128)
    (hh : ∀ j, IsReal (h j)) (hw : ∀ j k, IsReal (wf j k)) (hb : ∀ k, IsReal (bf k)) : IsReal (preFolded h wf bf k) :=
  (IsReal.sum _ _ fun j _ => (hh j).mul (hw j k)).add (hb k)

/-- The word the programs print for `ε = 1e-5` denotes a positive real. -/
theorem eps_pos : ∃ r : ℝ, 0 < r ∧ Ideal.ofBits .f32 0x3727C5AC#32 = (r : EReal) :=
  ⟨10995116 * (2 : ℝ) ^ (-40 : ℤ), by positivity, by
    simp [Ideal.ofBits, Ideal.ieee, -EReal.coe_mul]⟩

end Cert.Proof.Spec

end
-- ==== Proof.Payload.lean ====
/-
  One block of 5000 node rows through the layer's two dense maps, read entry by entry.

  The block's result at row `p`, column `q` depends only on row `p` of the two row operands (the node features and
  the neighbour sums), on the whole first weight matrix and bias, and on the whole second weight matrix and bias:
  it is `relu (∑ k, relu (∑ j, (x p j + a p j) · w j k + b k) · w' k q + b' q)`. A change of float format is the
  identity on the extended reals, a matrix product into the zero accumulator is the plain sum over the contracted
  axis, and a one-row array broadcast over the rows reads its one row.
-/
import proofs.«116654_j81243601371608_2_alg».proof.Proof.Gen.KernelIdeal.Skeleton
import proofs.«116654_j81243601371608_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BlockValue

open Idealize.ShloMosaic Idealize.ShloMosaic.ValueIdx Cert.KernelIdeal Cert.KernelIdeal.Gen Cert.Proof

/-- The left operand of the block product is read at the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand of the block product is read at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and column `q`: the sum over the contracted axis. -/
theorem matmul_block_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The rectifier's zero is the real number zero. -/
theorem relu_zero : (Scalar.ofBits (F := Ideal) .f32 0x00000000#32 : EReal) = 0 := Ideal.ofBits_zero_f32

/-- The first layer's block result at row `p`, column `q`. -/
theorem pay0_apply (x0 x1 : Vec Ideal S5000x128 .f32) (w : Vec Ideal S128x128 .bf16) (b : Vec Ideal S1x128 .f32)
    (w2 : Vec Ideal S128x128 .bf16) (b2 : Vec Ideal S1x128 .f32) (p : Fin 5000) (q : Fin 128) :
    k0_pay1 (F := Ideal) x0 x1 w b w2 b2 (ix2 p q)
      = Spec.mlpOut (Spec.preFolded (fun j => x0 (ix2 p j) + x1 (ix2 p j)) (fun j k => w (ix2 j k)) (fun k => b (ix2 (0 : Fin 1) k)))
          (fun k c => w2 (ix2 k c)) (fun c => b2 (ix2 (0 : Fin 1) c)) q := by
  unfold k0_pay1 Spec.mlpOut Spec.preFolded
  simp only [shapeCast_self, maximumf_apply, addf_apply, matmul_block_apply, broadcastTo_1b_ab_apply, broadcast_apply,
    truncf_apply, relu_zero]

/-- The second layer's block result at row `p`, column `q`: the same arithmetic. -/
theorem pay1_apply (x0 x1 : Vec Ideal S5000x128 .f32) (w : Vec Ideal S128x128 .bf16) (b : Vec Ideal S1x128 .f32)
    (w2 : Vec Ideal S128x128 .bf16) (b2 : Vec Ideal S1x128 .f32) (p : Fin 5000) (q : Fin 128) :
    k1_pay1 (F := Ideal) x0 x1 w b w2 b2 (ix2 p q)
      = Spec.mlpOut (Spec.preFolded (fun j => x0 (ix2 p j) + x1 (ix2 p j)) (fun j k => w (ix2 j k)) (fun k => b (ix2 (0 : Fin 1) k)))
          (fun k c => w2 (ix2 k c)) (fun c => b2 (ix2 (0 : Fin 1) c)) q := by
  unfold k1_pay1 Spec.mlpOut Spec.preFolded
  simp only [shapeCast_self, maximumf_apply, addf_apply, matmul_block_apply, broadcastTo_1b_ab_apply, broadcast_apply,
    truncf_apply, relu_zero]

/-- The layer on whole arrays, entry by entry: row `r` of the features and of the neighbour sums through the two
    dense maps with the whole weight matrices and the one-row biases. -/
def kerLayer (X A : Vec Ideal S50000x128 .f32) (W : Vec Ideal S128x128 .bf16) (B : Vec Ideal S1x128 .f32)
    (W2 : Vec Ideal S128x128 .bf16) (B2 : Vec Ideal S1x128 .f32) : Vec Ideal S50000x128 .f32 := fun i =>
  Spec.mlpOut (Spec.preFolded (fun j => X (ix2 (⟨(i 0).val, (i 0).isLt⟩ : Fin 50000) j) + A (ix2 (⟨(i 0).val, (i 0).isLt⟩ : Fin 50000) j))
      (fun j k => W (ix2 j k)) (fun k => B (ix2 (0 : Fin 1) k)))
    (fun k c => W2 (ix2 k c)) (fun c => B2 (ix2 (0 : Fin 1) c)) (⟨(i 1).val, (i 1).isLt⟩ : Fin 128)

theorem kerLayer_at (X A : Vec Ideal S50000x128 .f32) (W : Vec Ideal S128x128 .bf16) (B : Vec Ideal S1x128 .f32)
    (W2 : Vec Ideal S128x128 .bf16) (B2 : Vec Ideal S1x128 .f32) (r : Fin 50000) (c : Fin 128) :
    kerLayer X A W B W2 B2 (ix2 r c)
      = Spec.mlpOut (Spec.preFolded (fun j => X (ix2 r j) + A (ix2 r j)) (fun j k => W (ix2 j k)) (fun k => B (ix2 (0 : Fin 1) k)))
          (fun k c => W2 (ix2 k c)) (fun c => B2 (ix2 (0 : Fin 1) c)) c := rfl

end Cert.KernelIdeal.BlockValue

end
-- ==== Proof.Blocks0.lean ====
/-
  The first layer's result array, whole: the ten blocks of 5000 rows tile the 50000 rows.

  Grid point `t` reads rows `5000·t … 5000·t + 4999` of the node features and of the neighbour sums, and the
  whole weight matrices and biases, and writes the same rows of the result. So the result array, whatever the
  arrays the region finds on entry, is the layer's whole-array function of them.
-/
import proofs.«116654_j81243601371608_2_alg».proof.Proof.Gen.KernelIdeal.Frame
import proofs.«116654_j81243601371608_2_alg».proof.Proof.Payload

set_option maxRecDepth 16384

noncomputable section

namespace Cert.KernelIdeal.Region0

open Idealize.ShloMosaic Idealize.ShloMosaic.ValueIdx Idealize.ShloMosaic.TcCoe Idealize.SL.Sem
open Cert.KernelIdeal Cert.KernelIdeal.Gen Cert.KernelIdeal.BlockValue Cert.Proof
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the two row operands and the result move with the
    point along the rows; the weights and biases stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (p : Fin 5000) : 5000 * t.val + p.val < 50000 := by
  have ht : t.val < 10 := t.isLt
  have hp := p.isLt
  omega

/-- Block `t` of the node features at its row `p` is row `5000·t + p` of the array. -/
theorem rows0 (c : Dev nD) (t : Fin cfg0.N) (p : Fin 5000) (j : Fin 128) :
    iblk0 V c 0 t (ix2 p j) = V c (Pipeline.arrRef spec0 0) (ix2 (⟨5000 * t.val + p.val, row_lt t p⟩ : Fin 50000) j) := by
  obtain ⟨e0, e1, -⟩ := idx_facts t
  show V c (Pipeline.arrRef spec0 0) (((cfg0.win 0).blk t).view.emb (ix2 p j)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * j.val = j.val; omega

/-- Block `t` of the neighbour sums at its row `p` is row `5000·t + p` of the array. -/
theorem rows1 (c : Dev nD) (t : Fin cfg0.N) (p : Fin 5000) (j : Fin 128) :
    iblk0 V c 1 t (ix2 p j) = V c (Pipeline.arrRef spec0 1) (ix2 (⟨5000 * t.val + p.val, row_lt t p⟩ : Fin 50000) j) := by
  obtain ⟨-, -, e0, e1, -⟩ := idx_facts t
  show V c (Pipeline.arrRef spec0 1) (((cfg0.win 1).blk t).view.emb (ix2 p j)) = _
  refine congrArg _ (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * j.val = j.val; omega

/-- The first weight matrix's one block is the matrix. -/
theorem whole2 (c : Dev nD) (t : Fin cfg0.N) (j k : Fin 128) :
    iblk0 V c 2 t (ix2 j k) = V c (Pipeline.arrRef spec0 2) (ix2 j k) := by
  obtain ⟨-, -, -, -, e0, e1, -⟩ := idx_facts t
  show V c (Pipeline.arrRef spec0 2) (((cfg0.win 2).blk t).view.emb (ix2 j k)) = _
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

/-- The first bias's one block is the bias row. -/
theorem whole3 (c : Dev nD) (t : Fin cfg0.N) (k : Fin 128) :
    iblk0 V c 3 t (ix2 (0 : Fin 1) k) = V c (Pipeline.arrRef spec0 3) (ix2 (0 : Fin 1) k) := by
  obtain ⟨-, -, -, -, -, -, e0, e1, -⟩ := idx_facts t
  show V c (Pipeline.arrRef spec0 3) (((cfg0.win 3).blk t).view.emb (ix2 (0 : Fin 1) k)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- The second weight matrix's one block is the matrix. -/
theorem whole4 (c : Dev nD) (t : Fin cfg0.N) (j k : Fin 128) :
    iblk0 V c 4 t (ix2 j k) = V c (Pipeline.arrRef spec0 4) (ix2 j k) := by
  obtain ⟨-, -, -, -, -, -, -, -, e0, e1, -⟩ := idx_facts t
  show V c (Pipeline.arrRef spec0 4) (((cfg0.win 4).blk t).view.emb (ix2 j k)) = _
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega

/-- The second bias's one block is the bias row. -/
theorem whole5 (c : Dev nD) (t : Fin cfg0.N) (k : Fin 128) :
    iblk0 V c 5 t (ix2 (0 : Fin 1) k) = V c (Pipeline.arrRef spec0 5) (ix2 (0 : Fin 1) k) := by
  obtain ⟨-, -, -, -, -, -, -, -, -, -, e0, e1, -⟩ := idx_facts t
  show V c (Pipeline.arrRef spec0 5) (((cfg0.win 5).blk t).view.emb (ix2 (0 : Fin 1) k)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

/-- Row `p`, column `q` of the result's block `t` sits at row `5000·t + p`, column `q` of the result array. -/
theorem emb6 (t : Fin cfg0.N) (p : Fin 5000) (q : Fin 128) :
    ((cfg0.win 6).blk t).view.emb (ix2 p q) = ix2 (⟨5000 * t.val + p.val, row_lt t p⟩ : Fin 50000) q := by
  obtain ⟨-, -, -, -, -, -, -, -, -, -, -, -, e0, e1⟩ := idx_facts t
  funext a; apply Fin.ext
  match a with
  | ⟨0, _⟩ => show win0_6.index t (0 : Fin 2) * 5000 + 1 * p.val = 5000 * t.val + p.val; omega
  | ⟨1, _⟩ => show win0_6.index t (1 : Fin 2) * 128 + 1 * q.val = q.val; omega

set_option maxHeartbeats 2000000 in
/-- WHAT POINT `t` WRITES BACK is block `t` of the layer's whole-array function of the arrays the region finds. -/
theorem flushed_eq (c : Dev nD) (t : Fin cfg0.N) :
    (dat0 V c).flushed 6 t = ((cfg0.win 6).blk t).view.read (Elt Ideal)
      (kerLayer (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (iblk0 V c 3 t) (iblk0 V c 4 t) (iblk0 V c 5 t) (ix2 p q)
    = kerLayer (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (((cfg0.win 6).blk t).view.emb (ix2 p q))
  rw [emb6 t p q, kerLayer_at]
  refine (pay0_apply (iblk0 V c 0 t) (iblk0 V c 1 t) (iblk0 V c 2 t) (iblk0 V c 3 t) (iblk0 V c 4 t) (iblk0 V c 5 t) p q).trans ?_
  simp only [rows0 V c t, rows1 V c t, whole2 V c t, whole3 V c t, whole4 V c t, whole5 V c t]

/-- An index of the result array is in point `t`'s block iff each coordinate is in the block's range. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28).slice (win0_6.rect t)).set ↔ _
  rw [View.set_slice_whole, Rect.mem_set_unit]
  exact Iff.rfl

/-- Every row of the result is in the block of the point `row / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have ht : (i 0).val / 5000 < 10 := by omega
  refine ⟨⟨(i 0).val / 5000, ht⟩, flush0_6 _, ?_⟩
  obtain ⟨-, -, -, -, -, -, -, -, -, -, -, -, e0, e1⟩ := idx_facts ⟨(i 0).val / 5000, ht⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    have e0' : win0_6.index ⟨(i 0).val / 5000, ht⟩ (0 : Fin 2) = (i 0).val / 5000 := e0
    omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    omega

/-- THE RESULT ARRAY after the region: the layer's whole-array function of the arrays the region finds on entry. -/
theorem final (c : Dev nD) :
    (dat0 V c).arrAt 6 cfg0.N
      = kerLayer (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 V c).arrAt_eq_of_cover 6 _ (fun t _ => flushed_eq V c t) cover

end Cert.KernelIdeal.Region0

end
-- ==== Proof.RefLayer.lean ====
/-
  One message-passing layer of the reference, as its printed operations compose, and its reading entry by entry.

  `layer h a w b γ β μ σ² w' b'` is `relu (relu (bn ((h + a) · w + b)) · w' + b')` on whole arrays, the
  batch normalisation `bn y = (y − μ) · (σ² + ε)^(−1/2) · γ + β` acting along the columns. At row `r`, column `c`
  it is the layer's second half applied to the hidden pre-activations of row `r` with the normalisation applied
  after the first dense map.
-/
import proofs.«116654_j81243601371608_2_alg».proof.Proof.Gen.ReferenceIdeal
import proofs.«116654_j81243601371608_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.Proof

/-- A length-128 vector laid along the columns of every one of the 50000 rows. -/
def rowBcast (v : FVec Ideal S128 .f32) : FVec Ideal S50000x128 .f32 :=
  broadcastInDim S50000x128 ![0, 1] bcast_S1x128_S50000x128_0_1 (broadcastInDim S1x128 ![1] bcast_S128_S1x128_1 v)

theorem rowBcast_apply (v : FVec Ideal S128 .f32) (r : Fin 50000) (c : Fin 128) : rowBcast v (ix2 r c) = v (ix1 c) := by
  unfold rowBcast
  rw [broadcastInDim_apply _ bcast_S1x128_S50000x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])]
  exact broadcastInDim_apply _ bcast_S128_S1x128_1 v (ix2 (0 : Fin 1) c) (ix1 c) (fun a => match a with
    | ⟨0, _⟩ => by show c.val = if (128 : Nat) = 1 then 0 else c.val; rw [if_neg (by decide)])

/-- The all-zero array the rectifier compares with. -/
def zeros : FVec Ideal S50000x128 .f32 :=
  broadcastInDim S50000x128 ![] bcast_S_S50000x128 (constant S_ .f32 0x00000000#32)

theorem zeros_apply (i : S50000x128.Idx) : zeros i = 0 := by
  unfold zeros
  rw [broadcastInDim_apply _ bcast_S_S50000x128 _ i ix0 (fun a => a.elim0)]
  exact Ideal.ofBits_zero_f32

/-- `(σ² + ε)^(−1/2)`, column by column. -/
def invStd (v : FVec Ideal S128 .f32) : FVec Ideal S128 .f32 :=
  Host.rsqrt (addf v (broadcastInDim S128 ![] bcast_S_S128 (constant S_ .f32 0x3727C5AC#32)))

theorem invStd_apply (v : FVec Ideal S128 .f32) (k : Fin 128) :
    invStd v (ix1 k) = Ideal.rsqrt (v (ix1 k) + Ideal.ofBits .f32 0x3727C5AC#32) := by
  unfold invStd
  show Ideal.rsqrt (v (ix1 k) + broadcastInDim S128 ![] bcast_S_S128 (constant (F := Ideal) S_ .f32 0x3727C5AC#32) (ix1 k)) = _
  rw [broadcastInDim_apply _ bcast_S_S128 _ (ix1 k) ix0 (fun a => a.elim0)]
  rfl

/-- The left operand of the whole-array product is read at the output's row. -/
theorem lhs_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

/-- The right operand of the whole-array product is read at the output's column. -/
theorem rhs_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The whole-array product at row `r`, column `c`: the sum over the contracted axis. -/
theorem dot_apply (l : FVec Ideal S50000x128 .f32) (w : FVec Ideal S128x128 .f32) (r : Fin 50000) (c : Fin 128) :
    Host.dotGeneral dot_S50000x128_S128x128_S50000x128_1_0_0_1_n_n none l w (ix2 r c) = ∑ k : Fin 128, l (ix2 r k) * w (ix2 k c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c) ((contrEquiv1 dot_S50000x128_S128x128_S50000x128_1_0_0_1_n_n 128 rfl rfl).symm k) = ix2 r k := funext fun a => Fin.ext (by
    match a with
    | ⟨0, _⟩ => exact lhs_row _ _
    | ⟨1, _⟩ => exact (dot_S50000x128_S128x128_S50000x128_1_0_0_1_n_n.lhsIdx_val_of_single rfl _ _).trans hk)
  have er : dot_S50000x128_S128x128_S50000x128_1_0_0_1_n_n.rhsIdx (ix2 r c) ((contrEquiv1 dot_S50000x128_S128x128_S50000x128_1_0_0_1_n_n 128 rfl rfl).symm k) = ix2 k c := funext fun a => Fin.ext (by
    match a with
    | ⟨0, _⟩ => exact (dot_S50000x128_S128x128_S50000x128_1_0_0_1_n_n.rhsIdx_val_of_single rfl _ _).trans hk
    | ⟨1, _⟩ => exact rhs_col _ _)
  rw [el, er]

/-- One layer on whole arrays, as the printed operations compose. -/
def layer (h a : FVec Ideal S50000x128 .f32) (w : FVec Ideal S128x128 .f32) (b g β mu v : FVec Ideal S128 .f32)
    (w2 : FVec Ideal S128x128 .f32) (b2 : FVec Ideal S128 .f32) : FVec Ideal S50000x128 .f32 :=
  maximumf (addf (Host.dotGeneral dot_S50000x128_S128x128_S50000x128_1_0_0_1_n_n none
    (maximumf (addf (mulf (mulf (subf (addf (Host.dotGeneral dot_S50000x128_S128x128_S50000x128_1_0_0_1_n_n none (addf h a) w) (rowBcast b)) (rowBcast mu))
      (rowBcast (invStd v))) (rowBcast g)) (rowBcast β)) zeros) w2) (rowBcast b2)) zeros

/-- The layer at row `r`, column `c`. -/
theorem layer_apply (h a : FVec Ideal S50000x128 .f32) (w : FVec Ideal S128x128 .f32) (b g β mu v : FVec Ideal S128 .f32)
    (w2 : FVec Ideal S128x128 .f32) (b2 : FVec Ideal S128 .f32) (r : Fin 50000) (c : Fin 128) :
    layer h a w b g β mu v w2 b2 (ix2 r c)
      = Spec.mlpOut (Spec.preNormed (fun j => h (ix2 r j) + a (ix2 r j)) (fun j k => w (ix2 j k)) (fun k => b (ix1 k))
            (fun k => mu (ix1 k)) (fun k => Ideal.rsqrt (v (ix1 k) + Ideal.ofBits .f32 0x3727C5AC#32)) (fun k => g (ix1 k))
            (fun k => β (ix1 k)))
          (fun k c => w2 (ix2 k c)) (fun c => b2 (ix1 c)) c := by
  unfold layer Spec.mlpOut Spec.preNormed
  simp only [maximumf_apply, addf_apply, subf_apply, mulf_apply, dot_apply, rowBcast_apply, zeros_apply, invStd_apply]

end Cert.ReferenceIdeal.RefValue

end
-- ==== Proof.Bridge.lean ====
/-
  The two spellings of one layer agree on real arrays.

  `kerLayer` reads a layer entry by entry with the normalisation folded into the first dense map;
  `RefValue.layer` is the layer with the normalisation applied after it. When the folded weight is
  `w j k · (γ k · ρ k)`, the folded bias `(b k − μ k) · (γ k · ρ k) + β k`, `ρ k = (σ² k + ε)^(−1/2)`, every array
  holds real numbers and the variances are non-negative, the two are the same array.
-/
import proofs.«116654_j81243601371608_2_alg».proof.Proof.Payload
import proofs.«116654_j81243601371608_2_alg».proof.Proof.RefLayer

noncomputable section

namespace Cert.Proof.Bridge

open Idealize.ShloMosaic Idealize.ShloMosaic.ValueIdx Cert.Proof
open Cert.KernelIdeal.BlockValue (kerLayer kerLayer_at)
open Cert.ReferenceIdeal.RefValue (layer layer_apply)

theorem layer_bridge
    (h a : (⟨2, ![50000, 128]⟩ : Shape).Idx → EReal) (w w2 : (⟨2, ![128, 128]⟩ : Shape).Idx → EReal)
    (b g β mu v b2 : (⟨1, ![128]⟩ : Shape).Idx → EReal)
    (W W2 : (⟨2, ![128, 128]⟩ : Shape).Idx → EReal) (B B2 : (⟨2, ![1, 128]⟩ : Shape).Idx → EReal)
    (hW : ∀ j k : Fin 128, W (ix2 j k)
      = w (ix2 j k) * (g (ix1 k) * Ideal.rsqrt (v (ix1 k) + Ideal.ofBits .f32 0x3727C5AC#32)))
    (hB : ∀ k : Fin 128, B (ix2 (0 : Fin 1) k)
      = (b (ix1 k) - mu (ix1 k)) * (g (ix1 k) * Ideal.rsqrt (v (ix1 k) + Ideal.ofBits .f32 0x3727C5AC#32)) + β (ix1 k))
    (hW2 : ∀ k c : Fin 128, W2 (ix2 k c) = w2 (ix2 k c)) (hB2 : ∀ c : Fin 128, B2 (ix2 (0 : Fin 1) c) = b2 (ix1 c))
    (rh : ∀ i, Spec.IsReal (h i)) (ra : ∀ i, Spec.IsReal (a i)) (rw : ∀ i, Spec.IsReal (w i))
    (rb : ∀ i, Spec.IsReal (b i)) (rg : ∀ i, Spec.IsReal (g i)) (rβ : ∀ i, Spec.IsReal (β i))
    (rmu : ∀ i, Spec.IsReal (mu i)) (rv : ∀ i, Spec.IsReal (v i)) (v0 : ∀ i, 0 ≤ v i) :
    kerLayer h a W B W2 B2 = layer h a w b g β mu v w2 b2 := by
  funext i
  obtain ⟨r, c, rfl⟩ : ∃ (r : Fin 50000) (c : Fin 128), i = ix2 r c := ⟨i 0, i 1, eq_ix2 i⟩
  rw [kerLayer_at, layer_apply]
  simp only [hW, hB, hW2, hB2]
  refine congrArg (fun pre => Spec.mlpOut pre (fun k c => w2 (ix2 k c)) (fun c => b2 (ix1 c)) c) (funext fun k => ?_)
  exact Spec.preFolded_eq_preNormed (fun j => h (ix2 r j) + a (ix2 r j)) (fun j k => w (ix2 j k)) (fun k => b (ix1 k))
    (fun k => mu (ix1 k)) (fun k => Ideal.rsqrt (v (ix1 k) + Ideal.ofBits .f32 0x3727C5AC#32)) (fun k => g (ix1 k))
    (fun k => β (ix1 k)) (fun j => (rh _).add (ra _)) (fun j k => rw _) (fun k => rb _) (fun k => rmu _)
    (fun k => Spec.rsqrt_real (rv _) (v0 _) Spec.eps_pos) (fun k => rg _) (fun k => rβ _) k

/-- A layer of real arrays is a real array. -/
theorem kerLayer_real
    (X A : (⟨2, ![50000, 128]⟩ : Shape).Idx → EReal) (W W2 : (⟨2, ![128, 128]⟩ : Shape).Idx → EReal)
    (B B2 : (⟨2, ![1, 128]⟩ : Shape).Idx → EReal)
    (hX : ∀ i, Spec.IsReal (X i)) (hA : ∀ i, Spec.IsReal (A i)) (hW : ∀ i, Spec.IsReal (W i)) (hB : ∀ i, Spec.IsReal (B i))
    (hW2 : ∀ i, Spec.IsReal (W2 i)) (hB2 : ∀ i, Spec.IsReal (B2 i)) (i : (⟨2, ![50000, 128]⟩ : Shape).Idx) :
    Spec.IsReal (kerLayer X A W B W2 B2 i) := by
  obtain ⟨r, c, rfl⟩ : ∃ (r : Fin 50000) (c : Fin 128), i = ix2 r c := ⟨i 0, i 1, eq_ix2 i⟩
  rw [kerLayer_at]
  exact Spec.mlpOut_real _ _ _ _ (fun k => Spec.preFolded_real _ _ _ _ (fun j => (hX _).add (hA _)) (fun j k => hW _) (fun k => hB _))
    (fun k c => hW2 _) (fun c => hB2 _)

end Cert.Proof.Bridge

end
-- ==== Proof.KernelFold.lean ====
/-
  The operands the host prepares for a layer's dense maps, read entry by entry.

  The normalisation's column scale is `γ k · (σ² k + ε)^(−1/2)`; the first weight matrix is scaled column by
  column by it, the first bias becomes `(b k − μ k) · scale k + β k` laid out as one row; the second weight matrix
  and bias are only re-formatted (a change of float format is the identity on the extended reals; a vector
  becomes a one-row matrix).
-/
import proofs.«116654_j81243601371608_2_alg».proof.Proof.Gen.KernelIdeal
import proofs.«116654_j81243601371608_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostFold

open Idealize.ShloMosaic Idealize.ShloMosaic.ValueIdx Cert.KernelIdeal Cert.KernelIdeal.Gen Cert.Proof

/-- The normalisation's column scale `γ · (σ² + ε)^(−1/2)`. -/
def scale (g v : FVec Ideal S128 .f32) : FVec Ideal S128 .f32 :=
  mulf g (Host.rsqrt (addf v (broadcastInDim S128 ![] bcast_S_S128 (constant S_ .f32 0x3727C5AC#32))))

theorem scale_apply (g v : FVec Ideal S128 .f32) (k : Fin 128) :
    scale g v (ix1 k) = g (ix1 k) * Ideal.rsqrt (v (ix1 k) + Ideal.ofBits .f32 0x3727C5AC#32) := by
  unfold scale
  show g (ix1 k) * Ideal.rsqrt (v (ix1 k) + broadcastInDim S128 ![] bcast_S_S128 (constant (F := Ideal) S_ .f32 0x3727C5AC#32) (ix1 k)) = _
  rw [broadcastInDim_apply _ bcast_S_S128 _ (ix1 k) ix0 (fun a => a.elim0)]
  rfl

/-- The first weight matrix with the scale folded in, in the matrix unit's input format. -/
def foldW (w : FVec Ideal S128x128 .f32) (g v : FVec Ideal S128 .f32) : FVec Ideal S128x128 .bf16 :=
  truncf .bf16 (mulf w (broadcastInDim S128x128 ![0, 1] bcast_S1x128_S128x128_0_1
    (broadcastInDim S1x128 ![1] bcast_S128_S1x128_1 (scale g v)))) bitsLt_bf16_f32

theorem foldW_apply (w : FVec Ideal S128x128 .f32) (g v : FVec Ideal S128 .f32) (j k : Fin 128) :
    foldW w g v (ix2 j k) = w (ix2 j k) * (g (ix1 k) * Ideal.rsqrt (v (ix1 k) + Ideal.ofBits .f32 0x3727C5AC#32)) := by
  unfold foldW
  show w (ix2 j k) * broadcastInDim S128x128 ![0, 1] bcast_S1x128_S128x128_0_1
    (broadcastInDim S1x128 ![1] bcast_S128_S1x128_1 (scale g v)) (ix2 j k) = _
  rw [broadcastInDim_apply _ bcast_S1x128_S128x128_0_1 _ (ix2 j k) (ix2 (0 : Fin 1) k) (fun a => match a with
    | ⟨0, _⟩ => by show 0 = if (1 : Nat) = 1 then 0 else j.val; rw [if_pos rfl]
    | ⟨1, _⟩ => by show k.val = if (128 : Nat) = 1 then 0 else k.val; rw [if_neg (by decide)]),
    broadcastInDim_apply _ bcast_S128_S1x128_1 _ (ix2 (0 : Fin 1) k) (ix1 k) (fun a => match a with
    | ⟨0, _⟩ => by show k.val = if (128 : Nat) = 1 then 0 else k.val; rw [if_neg (by decide)]),
    scale_apply]

/-- The first bias with the normalisation folded in, as one row. -/
def foldB (b mu g v β : FVec Ideal S128 .f32) : FVec Ideal S1x128 .f32 :=
  shapeCast S1x128 (addf (mulf (subf b mu) (scale g v)) β) shapeCasts_S128_S1x128

theorem foldB_apply (b mu g v β : FVec Ideal S128 .f32) (k : Fin 128) :
    foldB b mu g v β (ix2 (0 : Fin 1) k)
      = (b (ix1 k) - mu (ix1 k)) * (g (ix1 k) * Ideal.rsqrt (v (ix1 k) + Ideal.ofBits .f32 0x3727C5AC#32)) + β (ix1 k) := by
  unfold foldB
  rw [shapeCast_a_1a_apply]
  show (b (ix1 k) - mu (ix1 k)) * scale g v (ix1 k) + β (ix1 k) = _
  rw [scale_apply]

/-- The second weight matrix in the matrix unit's input format. -/
def castW (w : FVec Ideal S128x128 .f32) : FVec Ideal S128x128 .bf16 := truncf .bf16 w bitsLt_bf16_f32

theorem castW_apply (w : FVec Ideal S128x128 .f32) (i : S128x128.Idx) : castW w i = w i := rfl

/-- A bias vector as one row. -/
def rowB (b : FVec Ideal S128 .f32) : FVec Ideal S1x128 .f32 := shapeCast S1x128 b shapeCasts_S128_S1x128

theorem rowB_apply (b : FVec Ideal S128 .f32) (k : Fin 128) : rowB b (ix2 (0 : Fin 1) k) = b (ix1 k) := by
  unfold rowB
  rw [shapeCast_a_1a_apply]

/-! ## The prepared operands hold real numbers when the layer's parameters do and the variances are non-negative -/

theorem foldW_real (w : FVec Ideal S128x128 .f32) (g v : FVec Ideal S128 .f32) (rw : ∀ i, Spec.IsReal (w i))
    (rg : ∀ i, Spec.IsReal (g i)) (rv : ∀ i, Spec.IsReal (v i)) (v0 : ∀ i, 0 ≤ v i) (i : S128x128.Idx) :
    Spec.IsReal (foldW w g v i) := by
  obtain ⟨j, k, rfl⟩ : ∃ (j k : Fin 128), i = ix2 j k := ⟨i 0, i 1, eq_ix2 i⟩
  rw [foldW_apply]
  exact (rw _).mul ((rg _).mul (Spec.rsqrt_real (rv _) (v0 _) Spec.eps_pos))

theorem foldB_real (b mu g v β : FVec Ideal S128 .f32) (rb : ∀ i, Spec.IsReal (b i)) (rmu : ∀ i, Spec.IsReal (mu i))
    (rg : ∀ i, Spec.IsReal (g i)) (rv : ∀ i, Spec.IsReal (v i)) (v0 : ∀ i, 0 ≤ v i) (rβ : ∀ i, Spec.IsReal (β i))
    (i : S1x128.Idx) : Spec.IsReal (foldB b mu g v β i) := by
  obtain ⟨u, k, rfl⟩ : ∃ (u : Fin 1) (k : Fin 128), i = ix2 u k := ⟨i 0, i 1, eq_ix2 i⟩
  obtain rfl : u = 0 := Subsingleton.elim _ _
  rw [foldB_apply]
  exact (((rb _).sub (rmu _)).mul ((rg _).mul (Spec.rsqrt_real (rv _) (v0 _) Spec.eps_pos))).add (rβ _)

theorem castW_real (w : FVec Ideal S128x128 .f32) (rw : ∀ i, Spec.IsReal (w i)) (i : S128x128.Idx) :
    Spec.IsReal (castW w i) := rw i

theorem rowB_real (b : FVec Ideal S128 .f32) (rb : ∀ i, Spec.IsReal (b i)) (i : S1x128.Idx) : Spec.IsReal (rowB b i) := by
  obtain ⟨u, k, rfl⟩ : ∃ (u : Fin 1) (k : Fin 128), i = ix2 u k := ⟨i 0, i 1, eq_ix2 i⟩
  obtain rfl : u = 0 := Subsingleton.elim _ _
  rw [rowB_apply]
  exact rb _

end Cert.KernelIdeal.HostFold

end
-- ==== Proof.RefRun.lean ====
/-
  The reference's result as three nested functions of its arguments.

  The result is `tail (layer₂ (layer₁ x))`: each layer takes the node features `h` and their neighbour sums
  `agg h` (row `i` of `agg h` is the sum of the rows `h[src e]` over the edges `e` with `dst e = i`), and
  `tail` sums the node rows of each graph and applies the last two dense maps. The printed program's stages
  are these functions by unfolding.
-/
import proofs.«116654_j81243601371608_2_alg».proof.Proof.Gen.ReferenceIdeal.Read
import proofs.«116654_j81243601371608_2_alg».proof.Proof.RefLayer

set_option maxRecDepth 65536

noncomputable section

namespace Cert.ReferenceIdeal.RefValue

open Idealize.ShloMosaic Idealize.ShloMosaic.ValueIdx Cert.ReferenceIdeal Cert.ReferenceIdeal.Gen Cert.ReferenceIdeal.Read Cert.Proof

/-- The neighbour sums of the rows of `h` along the edge list `e` (sources in its first row, targets in its second). -/
def agg (h : FVec Ideal S50000x128 .f32) (e : IVec S2x800000 32) : FVec Ideal S50000x128 .f32 :=
  Host.scatterAdd (F := Ideal) scatter_S50000x128_S800000x1_S800000x128_1_0_0_1 (val_main_v11 (F := Ideal)) (val_main_v12 (F := Ideal) e)
    (Host.gather gather_S50000x128_S800000x1_S800000x128_1_0_n_n_0_1_1128 h (val_main_v9 (F := Ideal) e))

/-- The per-graph sums of the node rows and the last two dense maps. -/
def tail (h : FVec Ideal S50000x128 .f32) (x2 : IVec S50000 32) (x19 : FVec Ideal S128x128 .f32) (x20 : FVec Ideal S128 .f32) (x21 : FVec Ideal S128x2 .f32) (x22 : FVec Ideal S2 .f32) : FVec Ideal S128x2 .f32 :=
  addf (F := Ideal) (Host.dotGeneral dot_S128x128_S128x2_S128x2_1_0_0_1_n_n none
    (maximumf (addf (Host.dotGeneral dot_S128x128_S128x128_S128x128_1_0_0_1_n_n none
      (Host.scatterAdd scatter_S128x128_S50000x1_S50000x128_1_0_0_1 (val_main_v76 (F := Ideal)) (val_main_v77 (F := Ideal) x2) h) x19)
      (val_main_v81 (F := Ideal) x20)) (val_main_call4_v0 (F := Ideal))) x21) (val_main_v86 (F := Ideal) x22)

theorem v13_eq (x0 : FVec Ideal S50000x128 .f32) (x1 : IVec S2x800000 32) :
    val_main_v13 (F := Ideal) x0 x1 = agg x0 x1 := rfl

theorem v39_eq (x0 : FVec Ideal S50000x128 .f32) (x1 : IVec S2x800000 32) (x3 : FVec Ideal S128x128 .f32) (x4 x5 x6 x7 x8 : FVec Ideal S128 .f32) (x9 : FVec Ideal S128x128 .f32) (x10 : FVec Ideal S128 .f32) :
    val_main_v39 (F := Ideal) x0 x1 x3 x4 x5 x6 x7 x8 x9 x10 = layer x0 (agg x0 x1) x3 x4 x5 x6 x7 x8 x9 x10 := rfl

theorem v49_eq (x0 : FVec Ideal S50000x128 .f32) (x1 : IVec S2x800000 32) (x3 : FVec Ideal S128x128 .f32) (x4 x5 x6 x7 x8 : FVec Ideal S128 .f32) (x9 : FVec Ideal S128x128 .f32) (x10 : FVec Ideal S128 .f32) :
    val_main_v49 (F := Ideal) x0 x1 x3 x4 x5 x6 x7 x8 x9 x10 = agg (val_main_v39 (F := Ideal) x0 x1 x3 x4 x5 x6 x7 x8 x9 x10) x1 := rfl

theorem v75_eq (x0 : FVec Ideal S50000x128 .f32) (x1 : IVec S2x800000 32) (x3 : FVec Ideal S128x128 .f32) (x4 x5 x6 x7 x8 : FVec Ideal S128 .f32) (x9 : FVec Ideal S128x128 .f32) (x10 : FVec Ideal S128 .f32) (x11 : FVec Ideal S128x128 .f32) (x12 x13 x14 x15 x16 : FVec Ideal S128 .f32) (x17 : FVec Ideal S128x128 .f32) (x18 : FVec Ideal S128 .f32) :
    val_main_v75 (F := Ideal) x0 x1 x3 x4 x5 x6 x7 x8 x9 x10 x11 x12 x13 x14 x15 x16 x17 x18
      = layer (val_main_v39 (F := Ideal) x0 x1 x3 x4 x5 x6 x7 x8 x9 x10) (val_main_v49 (F := Ideal) x0 x1 x3 x4 x5 x6 x7 x8 x9 x10) x11 x12 x13 x14 x15 x16 x17 x18 := rfl

theorem v87_eq (x0 : FVec Ideal S50000x128 .f32) (x1 : IVec S2x800000 32) (x2 : IVec S50000 32) (x3 : FVec Ideal S128x128 .f32) (x4 x5 x6 x7 x8 : FVec Ideal S128 .f32) (x9 : FVec Ideal S128x128 .f32) (x10 : FVec Ideal S128 .f32) (x11 : FVec Ideal S128x128 .f32) (x12 x13 x14 x15 x16 : FVec Ideal S128 .f32) (x17 : FVec Ideal S128x128 .f32) (x18 : FVec Ideal S128 .f32) (x19 : FVec Ideal S128x128 .f32) (x20 : FVec Ideal S128 .f32) (x21 : FVec Ideal S128x2 .f32) (x22 : FVec Ideal S2 .f32) :
    val_main_v87 (F := Ideal) x0 x1 x2 x3 x4 x5 x6 x7 x8 x9 x10 x11 x12 x13 x14 x15 x16 x17 x18 x19 x20 x21 x22
      = tail (val_main_v75 (F := Ideal) x0 x1 x3 x4 x5 x6 x7 x8 x9 x10 x11 x12 x13 x14 x15 x16 x17 x18) x2 x19 x20 x21 x22 := rfl

/-- The reference's result: `tail (layer₂ (layer₁ x))`. -/
theorem result_eq (x0 : FVec Ideal S50000x128 .f32) (x1 : IVec S2x800000 32) (x2 : IVec S50000 32) (x3 : FVec Ideal S128x128 .f32) (x4 x5 x6 x7 x8 : FVec Ideal S128 .f32) (x9 : FVec Ideal S128x128 .f32) (x10 : FVec Ideal S128 .f32) (x11 : FVec Ideal S128x128 .f32) (x12 x13 x14 x15 x16 : FVec Ideal S128 .f32) (x17 : FVec Ideal S128x128 .f32) (x18 : FVec Ideal S128 .f32) (x19 : FVec Ideal S128x128 .f32) (x20 : FVec Ideal S128 .f32) (x21 : FVec Ideal S128x2 .f32) (x22 : FVec Ideal S2 .f32) :
    val_main_v87 (F := Ideal) x0 x1 x2 x3 x4 x5 x6 x7 x8 x9 x10 x11 x12 x13 x14 x15 x16 x17 x18 x19 x20 x21 x22
      = tail (layer (layer x0 (agg x0 x1) x3 x4 x5 x6 x7 x8 x9 x10) (agg (layer x0 (agg x0 x1) x3 x4 x5 x6 x7 x8 x9 x10) x1)
          x11 x12 x13 x14 x15 x16 x17 x18) x2 x19 x20 x21 x22 := by
  rw [v87_eq, v75_eq, v49_eq, v39_eq]

end Cert.ReferenceIdeal.RefValue

end
-- ==== Proof.AggReal.lean ====
/-
  Neighbour sums of a real array are real.

  Row `i` of the neighbour sums is zero plus the sum, over the edges whose target is `i`, of a gathered row of
  the array; a gathered entry is an entry of the array, and a finite sum of real numbers is real.
-/
import proofs.«116654_j81243601371608_2_alg».proof.Proof.RefRun

set_option maxHeartbeats 100000

noncomputable section

namespace Cert.ReferenceIdeal.RefValue

open Idealize.ShloMosaic Idealize.ShloMosaic.ValueIdx Cert.ReferenceIdeal Cert.ReferenceIdeal.Gen Cert.ReferenceIdeal.Read Cert.Proof

/-- The array the sums start from holds zeros. -/
theorem base_real (i : S50000x128.Idx) : Spec.IsReal ((val_main_v11 (F := Ideal)) i) := by
  rw [val_main_v11_apply, val_main_cst_apply]
  exact ⟨0, Ideal.ofBits_zero_f32⟩

/-- A gathered entry is an entry of the array. -/
theorem gather_real (h : FVec Ideal S50000x128 .f32) (idx' : IVec S800000x1 32) (hh : ∀ i, Spec.IsReal (h i)) (j : S800000x128.Idx) :
    Spec.IsReal (Host.gather gather_S50000x128_S800000x1_S800000x128_1_0_n_n_0_1_1128 h idx' j) := hh _

/-- The accumulating scatter of real updates into a real array is real. -/
theorem scatter_real (z : FVec Ideal S50000x128 .f32) (idx : IVec S800000x1 32) (u : FVec Ideal S800000x128 .f32)
    (hz : ∀ i, Spec.IsReal (z i)) (hu : ∀ j, Spec.IsReal (u j)) (i : S50000x128.Idx) :
    Spec.IsReal (Host.scatterAdd (F := Ideal) scatter_S50000x128_S800000x1_S800000x128_1_0_0_1 z idx u i) :=
  Spec.scatterAdd_real scatter_S50000x128_S800000x1_S800000x128_1_0_0_1 z idx u hz hu i

theorem agg_real (h : FVec Ideal S50000x128 .f32) (e : IVec S2x800000 32) (hh : ∀ i, Spec.IsReal (h i)) (i : S50000x128.Idx) :
    Spec.IsReal (agg h e i) :=
  scatter_real (val_main_v11 (F := Ideal)) (val_main_v12 (F := Ideal) e)
    (Host.gather gather_S50000x128_S800000x1_S800000x128_1_0_n_n_0_1_1128 h (val_main_v9 (F := Ideal) e))
    base_real (gather_real h (val_main_v9 (F := Ideal) e) hh) i

end Cert.ReferenceIdeal.RefValue

end
-- ==== Proof.PreFacts.lean ====
/-
  The precondition, decoded. The generated predicate `Cert.Pre_finite_inputs.fn` is a chain of host operations: for each
  of the 21 float arguments a, the conjunction over all entries of |a| < +∞ (an absolute value, a comparison against the
  pattern of +∞, and a reduction by `and` over every axis from the constant 1), and for arguments 8 and 16 also the
  conjunction over all entries of a ≥ 0; the 23 one-bit results are joined by `and`. Read at the extended reals: the
  pattern 0x7F800000 is ⊤, |x| is max x (−x), and max x (−x) < ⊤ leaves x neither ⊤ nor ⊥, i.e. a real; the pattern
  0x00000000 is 0, and the comparison ≥ is the order's. A conjunction of bits is 1 exactly when each is; a reduction by
  `and` into a result of one index is 1 only if every operand entry is 1. So from "the predicate is all ones" every
  entry of every float argument is a real, and every entry of arguments 8 and 16 is nonnegative.
-/
import proofs.«116654_j81243601371608_2_alg».proof.Pre_finite_inputs
import Idealize.ShloMosaic.PureOps.Ideal
import Idealize.ShloMosaic.Lib.ReduceAll
import Idealize.ShloMosaic.Lib.ValueIdx

noncomputable section

namespace Cert.Proof.PreFacts

open Idealize.ShloMosaic Cert.Pre_finite_inputs

/-- The scalar shape has one index. -/
instance : Subsingleton S_.Idx := ⟨fun a b => funext fun d => d.elim0⟩

/-- A bit made from a Boolean is 1 exactly when the Boolean is true. -/
theorem ofBool_eq_one (b : Bool) : BitVec.ofBool b = 1#1 ↔ b = true := by cases b <;> decide

/-- One value: |x| < +∞ (against the f32 pattern of +∞) holds only of a real. -/
theorem real_of_abs_lt (x : Ideal .f32)
    (h : FloatOps.cmpf (F := Ideal) .olt (FloatOps.hostAbsf x) (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [ofBool_eq_one] at h
  have hlt : max (x : EReal) (-(x : EReal)) < ⊤ := by simpa using h
  rw [max_lt_iff] at hlt
  induction x using EReal.rec with
  | bot => simp at hlt
  | coe r => exact ⟨r, rfl⟩
  | top => simp at hlt

/-- One value: x ≥ 0 (against the f32 pattern of zero) is the order's 0 ≤ x. -/
theorem nonneg_of_ge (x : Ideal .f32)
    (h : FloatOps.cmpf (F := Ideal) .oge x (FloatOps.ofBits (F := Ideal) .f32 0x00000000#32) = 1#1) :
    (0 : EReal) ≤ x := by
  have h0 : Ideal.ofBits .f32 0x00000000#32 = 0 := by simp [Ideal.ofBits, Ideal.ieee]
  change Ideal.cmp .oge (x : EReal) (Ideal.ofBits .f32 0x00000000#32) = 1#1 at h
  rw [h0] at h
  unfold Ideal.cmp at h
  rw [ofBool_eq_one] at h
  simpa using h

/-- Any shape: the reduction by `and`, over every axis, of |a| < +∞ is 1 — then every entry of a is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant S_ .f32 0x7F800000#32))) init hr hu j = 1#1)
    (i : s.Idx) : ∃ r : ℝ, a i = ((r : ℝ) : EReal) :=
  real_of_abs_lt (a i) (Host.reduce_andi_all _ init hr hu j e i)

/-- Any shape: the reduction by `and`, over every axis, of a ≥ 0 is 1 — then every entry of a is nonnegative. -/
theorem nonneg_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .oge a (broadcastInDim s ![] hb (constant S_ .f32 0x00000000#32))) init hr hu j = 1#1)
    (i : s.Idx) : (0 : EReal) ≤ a i :=
  nonneg_of_ge (a i) (Host.reduce_andi_all _ init hr hu j e i)

/-- What the precondition says of the float arguments: every entry of each is a real, and the entries of arguments 8
    and 16 are nonnegative. -/
structure Decoded
    (a0 : FVec Ideal S50000x128 .f32) (a3 : FVec Ideal S128x128 .f32) (a4 : FVec Ideal S128 .f32)
    (a5 : FVec Ideal S128 .f32) (a6 : FVec Ideal S128 .f32) (a7 : FVec Ideal S128 .f32)
    (a8 : FVec Ideal S128 .f32) (a9 : FVec Ideal S128x128 .f32) (a10 : FVec Ideal S128 .f32)
    (a11 : FVec Ideal S128x128 .f32) (a12 : FVec Ideal S128 .f32) (a13 : FVec Ideal S128 .f32)
    (a14 : FVec Ideal S128 .f32) (a15 : FVec Ideal S128 .f32) (a16 : FVec Ideal S128 .f32)
    (a17 : FVec Ideal S128x128 .f32) (a18 : FVec Ideal S128 .f32) (a19 : FVec Ideal S128x128 .f32)
    (a20 : FVec Ideal S128 .f32) (a21 : FVec Ideal S128x2 .f32) (a22 : FVec Ideal S2 .f32) : Prop where
  /-- every entry of argument 0 is a real number -/
  real0 : ∀ i, ∃ r : ℝ, a0 i = ((r : ℝ) : EReal)
  /-- every entry of argument 3 is a real number -/
  real3 : ∀ i, ∃ r : ℝ, a3 i = ((r : ℝ) : EReal)
  /-- every entry of argument 4 is a real number -/
  real4 : ∀ i, ∃ r : ℝ, a4 i = ((r : ℝ) : EReal)
  /-- every entry of argument 5 is a real number -/
  real5 : ∀ i, ∃ r : ℝ, a5 i = ((r : ℝ) : EReal)
  /-- every entry of argument 6 is a real number -/
  real6 : ∀ i, ∃ r : ℝ, a6 i = ((r : ℝ) : EReal)
  /-- every entry of argument 7 is a real number -/
  real7 : ∀ i, ∃ r : ℝ, a7 i = ((r : ℝ) : EReal)
  /-- every entry of argument 8 is a real number -/
  real8 : ∀ i, ∃ r : ℝ, a8 i = ((r : ℝ) : EReal)
  /-- every entry of argument 9 is a real number -/
  real9 : ∀ i, ∃ r : ℝ, a9 i = ((r : ℝ) : EReal)
  /-- every entry of argument 10 is a real number -/
  real10 : ∀ i, ∃ r : ℝ, a10 i = ((r : ℝ) : EReal)
  /-- every entry of argument 11 is a real number -/
  real11 : ∀ i, ∃ r : ℝ, a11 i = ((r : ℝ) : EReal)
  /-- every entry of argument 12 is a real number -/
  real12 : ∀ i, ∃ r : ℝ, a12 i = ((r : ℝ) : EReal)
  /-- every entry of argument 13 is a real number -/
  real13 : ∀ i, ∃ r : ℝ, a13 i = ((r : ℝ) : EReal)
  /-- every entry of argument 14 is a real number -/
  real14 : ∀ i, ∃ r : ℝ, a14 i = ((r : ℝ) : EReal)
  /-- every entry of argument 15 is a real number -/
  real15 : ∀ i, ∃ r : ℝ, a15 i = ((r : ℝ) : EReal)
  /-- every entry of argument 16 is a real number -/
  real16 : ∀ i, ∃ r : ℝ, a16 i = ((r : ℝ) : EReal)
  /-- every entry of argument 17 is a real number -/
  real17 : ∀ i, ∃ r : ℝ, a17 i = ((r : ℝ) : EReal)
  /-- every entry of argument 18 is a real number -/
  real18 : ∀ i, ∃ r : ℝ, a18 i = ((r : ℝ) : EReal)
  /-- every entry of argument 19 is a real number -/
  real19 : ∀ i, ∃ r : ℝ, a19 i = ((r : ℝ) : EReal)
  /-- every entry of argument 20 is a real number -/
  real20 : ∀ i, ∃ r : ℝ, a20 i = ((r : ℝ) : EReal)
  /-- every entry of argument 21 is a real number -/
  real21 : ∀ i, ∃ r : ℝ, a21 i = ((r : ℝ) : EReal)
  /-- every entry of argument 22 is a real number -/
  real22 : ∀ i, ∃ r : ℝ, a22 i = ((r : ℝ) : EReal)
  /-- every entry of argument 8 is nonnegative -/
  nonneg8 : ∀ i, (0 : EReal) ≤ a8 i
  /-- every entry of argument 16 is nonnegative -/
  nonneg16 : ∀ i, (0 : EReal) ≤ a16 i

/-- The precondition decoded: from "the predicate is all ones" at the extended reals, the facts above. -/
theorem decode [Facts]
    (a0 : FVec Ideal S50000x128 .f32) (a1 : IVec S2x800000 32) (a2 : IVec S50000 32)
    (a3 : FVec Ideal S128x128 .f32) (a4 : FVec Ideal S128 .f32) (a5 : FVec Ideal S128 .f32)
    (a6 : FVec Ideal S128 .f32) (a7 : FVec Ideal S128 .f32) (a8 : FVec Ideal S128 .f32)
    (a9 : FVec Ideal S128x128 .f32) (a10 : FVec Ideal S128 .f32) (a11 : FVec Ideal S128x128 .f32)
    (a12 : FVec Ideal S128 .f32) (a13 : FVec Ideal S128 .f32) (a14 : FVec Ideal S128 .f32)
    (a15 : FVec Ideal S128 .f32) (a16 : FVec Ideal S128 .f32) (a17 : FVec Ideal S128x128 .f32)
    (a18 : FVec Ideal S128 .f32) (a19 : FVec Ideal S128x128 .f32) (a20 : FVec Ideal S128 .f32)
    (a21 : FVec Ideal S128x2 .f32) (a22 : FVec Ideal S2 .f32)
    (h : Cert.Pre_finite_inputs.fn (F := Ideal) a0 a1 a2 a3 a4 a5 a6 a7 a8 a9 a10 a11 a12 a13 a14 a15 a16 a17 a18 a19 a20 a21 a22 = (fun _ => 1#1)) :
    Decoded a0 a3 a4 a5 a6 a7 a8 a9 a10 a11 a12 a13 a14 a15 a16 a17 a18 a19 a20 a21 a22 := by
  have e := congrFun h ValueIdx.ix0
  dsimp only [fn, fn_part1, fn_part2, fn_part3, fn_part4, fn_part5, fn_part6, andi] at e
  simp only [IntOp.andi_eq_one] at e
  obtain ⟨⟨⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩, n8⟩, n16⟩ := e
  exact {
    real0 := real_of_all a0 _ _ _ _ _ h0
    real3 := real_of_all a3 _ _ _ _ _ h3
    real4 := real_of_all a4 _ _ _ _ _ h4
    real5 := real_of_all a5 _ _ _ _ _ h5
    real6 := real_of_all a6 _ _ _ _ _ h6
    real7 := real_of_all a7 _ _ _ _ _ h7
    real8 := real_of_all a8 _ _ _ _ _ h8
    real9 := real_of_all a9 _ _ _ _ _ h9
    real10 := real_of_all a10 _ _ _ _ _ h10
    real11 := real_of_all a11 _ _ _ _ _ h11
    real12 := real_of_all a12 _ _ _ _ _ h12
    real13 := real_of_all a13 _ _ _ _ _ h13
    real14 := real_of_all a14 _ _ _ _ _ h14
    real15 := real_of_all a15 _ _ _ _ _ h15
    real16 := real_of_all a16 _ _ _ _ _ h16
    real17 := real_of_all a17 _ _ _ _ _ h17
    real18 := real_of_all a18 _ _ _ _ _ h18
    real19 := real_of_all a19 _ _ _ _ _ h19
    real20 := real_of_all a20 _ _ _ _ _ h20
    real21 := real_of_all a21 _ _ _ _ _ h21
    real22 := real_of_all a22 _ _ _ _ _ h22
    nonneg8 := nonneg_of_all a8 _ _ _ _ _ n8
    nonneg16 := nonneg_of_all a16 _ _ _ _ _ n16 }

end Cert.Proof.PreFacts

end
-- ==== Proof.KernelValue1.lean ====
/-
  The first layer's result array, as the reference spells it.

  On entry to the first region the host has prepared the neighbour sums of the node features, the first weight
  matrix and bias with the normalisation folded in, and the re-formatted second weight matrix and bias. The
  region leaves the layer's whole-array function of them, which — every parameter a real number, the variances
  non-negative — is the reference's layer of the arguments. The result is again an array of real numbers.
-/
import proofs.«116654_j81243601371608_2_alg».proof.Proof.KernelHost
import proofs.«116654_j81243601371608_2_alg».proof.Proof.Blocks0
import proofs.«116654_j81243601371608_2_alg».proof.Proof.Bridge
import proofs.«116654_j81243601371608_2_alg».proof.Proof.KernelFold
import proofs.«116654_j81243601371608_2_alg».proof.Proof.AggReal
import proofs.«116654_j81243601371608_2_alg».proof.Proof.PreFacts

set_option maxHeartbeats 400000

noncomputable section

namespace Cert.KernelIdeal.Value1

open Idealize.ShloMosaic Idealize.ShloMosaic.ValueIdx Idealize.ShloMosaic.TcCoe Idealize.SL.Sem Cert.Proof
open Cert.KernelIdeal Cert.KernelIdeal.Gen
open Cert.ReferenceIdeal.RefValue (layer agg tail agg_real)

/-! ## The host's prepared operands under their two spellings -/

theorem aggregate_eq (X : FVec Ideal S50000x128 .f32) (E : IVec S2x800000 32) : HostRead.aggregate X E = agg X E := rfl
theorem foldedWeight_eq (W : FVec Ideal S128x128 .f32) (g v : FVec Ideal S128 .f32) :
    HostRead.foldedWeight W g v = HostFold.foldW W g v := rfl
theorem foldedBias_eq (b mu g v β : FVec Ideal S128 .f32) : HostRead.foldedBias b mu g v β = HostFold.foldB b mu g v β := rfl
theorem roundedWeight_eq (W : FVec Ideal S128x128 .f32) : HostRead.roundedWeight W = HostFold.castW W := rfl
theorem biasRow_eq (b : FVec Ideal S128 .f32) : HostRead.biasRow b = HostFold.rowB b := rfl

/-- One layer from prepared operands is the reference's layer: the bridge, instantiated at the host's operands. -/
theorem layer_of_prepared (h : FVec Ideal S50000x128 .f32) (E : IVec S2x800000 32) (w : FVec Ideal S128x128 .f32)
    (b g β mu v : FVec Ideal S128 .f32) (w2 : FVec Ideal S128x128 .f32) (b2 : FVec Ideal S128 .f32)
    (rh : ∀ i, Spec.IsReal (h i)) (rw : ∀ i, Spec.IsReal (w i)) (rb : ∀ i, Spec.IsReal (b i)) (rg : ∀ i, Spec.IsReal (g i))
    (rβ : ∀ i, Spec.IsReal (β i)) (rmu : ∀ i, Spec.IsReal (mu i)) (rv : ∀ i, Spec.IsReal (v i)) (v0 : ∀ i, 0 ≤ v i) :
    BlockValue.kerLayer h (HostRead.aggregate h E) (HostRead.foldedWeight w g v) (HostRead.foldedBias b mu g v β)
        (HostRead.roundedWeight w2) (HostRead.biasRow b2)
      = layer h (agg h E) w b g β mu v w2 b2 := by
  rw [aggregate_eq, foldedWeight_eq, foldedBias_eq, roundedWeight_eq, biasRow_eq]
  exact Bridge.layer_bridge h (agg h E) w w2 b g β mu v b2 (HostFold.foldW w g v) (HostFold.castW w2) (HostFold.foldB b mu g v β)
    (HostFold.rowB b2) (fun j k => HostFold.foldW_apply w g v j k) (fun k => HostFold.foldB_apply b mu g v β k)
    (fun k c => HostFold.castW_apply w2 (ix2 k c)) (fun c => HostFold.rowB_apply b2 c) rh (agg_real h E rh) rw rb rg rβ rmu rv v0

/-- The layer of real arrays is real. -/
theorem layer_real (h : FVec Ideal S50000x128 .f32) (E : IVec S2x800000 32) (w : FVec Ideal S128x128 .f32)
    (b g β mu v : FVec Ideal S128 .f32) (w2 : FVec Ideal S128x128 .f32) (b2 : FVec Ideal S128 .f32)
    (rh : ∀ i, Spec.IsReal (h i)) (rw : ∀ i, Spec.IsReal (w i)) (rb : ∀ i, Spec.IsReal (b i)) (rg : ∀ i, Spec.IsReal (g i))
    (rβ : ∀ i, Spec.IsReal (β i)) (rmu : ∀ i, Spec.IsReal (mu i)) (rv : ∀ i, Spec.IsReal (v i)) (v0 : ∀ i, 0 ≤ v i)
    (rw2 : ∀ i, Spec.IsReal (w2 i)) (rb2 : ∀ i, Spec.IsReal (b2 i)) (i : S50000x128.Idx) :
    Spec.IsReal (layer h (agg h E) w b g β mu v w2 b2 i) := by
  rw [← layer_of_prepared h E w b g β mu v w2 b2 rh rw rb rg rβ rmu rv v0,
    aggregate_eq, foldedWeight_eq, foldedBias_eq, roundedWeight_eq, biasRow_eq]
  exact Bridge.kerLayer_real h (agg h E) (HostFold.foldW w g v) (HostFold.castW w2) (HostFold.foldB b mu g v β) (HostFold.rowB b2)
    rh (agg_real h E rh) (HostFold.foldW_real w g v rw rg rv v0) (HostFold.foldB_real b mu g v β rb rmu rg rv v0 rβ)
    (HostFold.castW_real w2 rw2) (HostFold.rowB_real b2 rb2) i

variable (m : (ℓ : Loc nD τ sig) → Buf (Elt Ideal) ℓ) (ρ : Dev nD → PrngReg) (c : Dev nD)

/-- THE FIRST REGION'S RESULT ARRAY is the reference's first layer of the arguments. -/
theorem region0_value (D : PreFacts.Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) :
    (Gen.dat0 (Gen.V1 m ρ) c).arrAt 6 cfg0.N
      = layer (m ((c.tc : Thread Cert.KernelIdeal.nD Cert.KernelIdeal.τ).loc Cert.KernelIdeal.main_arg0)) (agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Region0.final (Gen.V1 m ρ) c, HostRead.V1_0, HostRead.V1_1, HostRead.V1_2, HostRead.V1_3, HostRead.V1_4, HostRead.V1_5]
  exact layer_of_prepared _ _ _ _ _ _ _ _ _ _ D.real0 D.real3 D.real4 D.real5 D.real6 D.real7 D.real8 D.nonneg8

end Cert.KernelIdeal.Value1

end
-- ==== Proof.KernelHostTail.lean ====
/- The host stretches of the kernel program past its first region: region 1's six operand arrays when it is entered,
   as the second stretch's composed terms of the argument arrays and of region 0's output array, and the result
   buffer at the end, as the readout of region 1's output array. An argument array, and the edge list's rows the first
   stretch computed, are read at the later boundaries unchanged: no later operation and no region writes them. -/
import proofs.«116654_j81243601371608_2_alg».proof.Proof.Gen.KernelIdeal.Frame
import proofs.«116654_j81243601371608_2_alg».proof.Proof.KernelHost
import Idealize.ShloMosaic.Lib.StableHlo.Run
import Idealize.ShloMosaic.PureOps.Ideal

set_option maxRecDepth 16384

noncomputable section

namespace Cert.KernelIdeal.HostRead

open Cert.KernelIdeal Cert.KernelIdeal.Gen
open Idealize.ShloMosaic Idealize.ShloMosaic.TcCoe Idealize.ShloMosaic.Tactic
open Idealize.SL.Sem Idealize.ShloMosaic.StableHlo

variable (m : (ℓ : Loc nD τ sig) → Buf (Elt Ideal) ℓ) (ρ : Dev nD → PrngReg) (c : Dev nD)

/-! ## An argument array, and the edge list's rows, read at the later boundaries: nothing writes them -/

theorem W1_main_arg2 : Gen.W1 m ρ c (Proc.devRef .tc main_arg2) = (m ((c.tc : Thread nD τ).loc main_arg2)) := by
  simp only [Gen.W1, Gen.hostOps0]; after_results_simp <;> rfl
theorem W2_main_arg2 : Gen.W2 m ρ c (Proc.devRef .tc main_arg2) = (m ((c.tc : Thread nD τ).loc main_arg2)) :=
  (Gen.W2_of_ne m ρ c main_arg2 (by decide)).trans (W1_main_arg2 m ρ c)
theorem W1_main_arg11 : Gen.W1 m ρ c (Proc.devRef .tc main_arg11) = (m ((c.tc : Thread nD τ).loc main_arg11)) := by
  simp only [Gen.W1, Gen.hostOps0]; after_results_simp <;> rfl
theorem W2_main_arg11 : Gen.W2 m ρ c (Proc.devRef .tc main_arg11) = (m ((c.tc : Thread nD τ).loc main_arg11)) :=
  (Gen.W2_of_ne m ρ c main_arg11 (by decide)).trans (W1_main_arg11 m ρ c)
theorem W1_main_arg12 : Gen.W1 m ρ c (Proc.devRef .tc main_arg12) = (m ((c.tc : Thread nD τ).loc main_arg12)) := by
  simp only [Gen.W1, Gen.hostOps0]; after_results_simp <;> rfl
theorem W2_main_arg12 : Gen.W2 m ρ c (Proc.devRef .tc main_arg12) = (m ((c.tc : Thread nD τ).loc main_arg12)) :=
  (Gen.W2_of_ne m ρ c main_arg12 (by decide)).trans (W1_main_arg12 m ρ c)
theorem W1_main_arg13 : Gen.W1 m ρ c (Proc.devRef .tc main_arg13) = (m ((c.tc : Thread nD τ).loc main_arg13)) := by
  simp only [Gen.W1, Gen.hostOps0]; after_results_simp <;> rfl
theorem W2_main_arg13 : Gen.W2 m ρ c (Proc.devRef .tc main_arg13) = (m ((c.tc : Thread nD τ).loc main_arg13)) :=
  (Gen.W2_of_ne m ρ c main_arg13 (by decide)).trans (W1_main_arg13 m ρ c)
theorem W1_main_arg14 : Gen.W1 m ρ c (Proc.devRef .tc main_arg14) = (m ((c.tc : Thread nD τ).loc main_arg14)) := by
  simp only [Gen.W1, Gen.hostOps0]; after_results_simp <;> rfl
theorem W2_main_arg14 : Gen.W2 m ρ c (Proc.devRef .tc main_arg14) = (m ((c.tc : Thread nD τ).loc main_arg14)) :=
  (Gen.W2_of_ne m ρ c main_arg14 (by decide)).trans (W1_main_arg14 m ρ c)
theorem W1_main_arg15 : Gen.W1 m ρ c (Proc.devRef .tc main_arg15) = (m ((c.tc : Thread nD τ).loc main_arg15)) := by
  simp only [Gen.W1, Gen.hostOps0]; after_results_simp <;> rfl
theorem W2_main_arg15 : Gen.W2 m ρ c (Proc.devRef .tc main_arg15) = (m ((c.tc : Thread nD τ).loc main_arg15)) :=
  (Gen.W2_of_ne m ρ c main_arg15 (by decide)).trans (W1_main_arg15 m ρ c)
theorem W1_main_arg16 : Gen.W1 m ρ c (Proc.devRef .tc main_arg16) = (m ((c.tc : Thread nD τ).loc main_arg16)) := by
  simp only [Gen.W1, Gen.hostOps0]; after_results_simp <;> rfl
theorem W2_main_arg16 : Gen.W2 m ρ c (Proc.devRef .tc main_arg16) = (m ((c.tc : Thread nD τ).loc main_arg16)) :=
  (Gen.W2_of_ne m ρ c main_arg16 (by decide)).trans (W1_main_arg16 m ρ c)
theorem W1_main_arg17 : Gen.W1 m ρ c (Proc.devRef .tc main_arg17) = (m ((c.tc : Thread nD τ).loc main_arg17)) := by
  simp only [Gen.W1, Gen.hostOps0]; after_results_simp <;> rfl
theorem W2_main_arg17 : Gen.W2 m ρ c (Proc.devRef .tc main_arg17) = (m ((c.tc : Thread nD τ).loc main_arg17)) :=
  (Gen.W2_of_ne m ρ c main_arg17 (by decide)).trans (W1_main_arg17 m ρ c)
theorem W1_main_arg18 : Gen.W1 m ρ c (Proc.devRef .tc main_arg18) = (m ((c.tc : Thread nD τ).loc main_arg18)) := by
  simp only [Gen.W1, Gen.hostOps0]; after_results_simp <;> rfl
theorem W2_main_arg18 : Gen.W2 m ρ c (Proc.devRef .tc main_arg18) = (m ((c.tc : Thread nD τ).loc main_arg18)) :=
  (Gen.W2_of_ne m ρ c main_arg18 (by decide)).trans (W1_main_arg18 m ρ c)
theorem W1_main_arg19 : Gen.W1 m ρ c (Proc.devRef .tc main_arg19) = (m ((c.tc : Thread nD τ).loc main_arg19)) := by
  simp only [Gen.W1, Gen.hostOps0]; after_results_simp <;> rfl
theorem W2_main_arg19 : Gen.W2 m ρ c (Proc.devRef .tc main_arg19) = (m ((c.tc : Thread nD τ).loc main_arg19)) :=
  (Gen.W2_of_ne m ρ c main_arg19 (by decide)).trans (W1_main_arg19 m ρ c)
theorem W1_main_arg20 : Gen.W1 m ρ c (Proc.devRef .tc main_arg20) = (m ((c.tc : Thread nD τ).loc main_arg20)) := by
  simp only [Gen.W1, Gen.hostOps0]; after_results_simp <;> rfl
theorem W2_main_arg20 : Gen.W2 m ρ c (Proc.devRef .tc main_arg20) = (m ((c.tc : Thread nD τ).loc main_arg20)) :=
  (Gen.W2_of_ne m ρ c main_arg20 (by decide)).trans (W1_main_arg20 m ρ c)
theorem W1_main_arg21 : Gen.W1 m ρ c (Proc.devRef .tc main_arg21) = (m ((c.tc : Thread nD τ).loc main_arg21)) := by
  simp only [Gen.W1, Gen.hostOps0]; after_results_simp <;> rfl
theorem W2_main_arg21 : Gen.W2 m ρ c (Proc.devRef .tc main_arg21) = (m ((c.tc : Thread nD τ).loc main_arg21)) :=
  (Gen.W2_of_ne m ρ c main_arg21 (by decide)).trans (W1_main_arg21 m ρ c)
theorem W1_main_arg22 : Gen.W1 m ρ c (Proc.devRef .tc main_arg22) = (m ((c.tc : Thread nD τ).loc main_arg22)) := by
  simp only [Gen.W1, Gen.hostOps0]; after_results_simp <;> rfl
theorem W2_main_arg22 : Gen.W2 m ρ c (Proc.devRef .tc main_arg22) = (m ((c.tc : Thread nD τ).loc main_arg22)) :=
  (Gen.W2_of_ne m ρ c main_arg22 (by decide)).trans (W1_main_arg22 m ρ c)

theorem W1_main_v1 : (Gen.W1 m ρ c (Proc.devRef .tc main_v1) : S800000.Idx → BitVec 32) = edgeSrc (m ((c.tc : Thread nD τ).loc main_arg1)) := by
  simp only [Gen.W1, Gen.hostOps0]; after_results_simp <;> rfl
theorem W2_main_v1 : (Gen.W2 m ρ c (Proc.devRef .tc main_v1) : S800000.Idx → BitVec 32) = edgeSrc (m ((c.tc : Thread nD τ).loc main_arg1)) :=
  (Gen.W2_of_ne m ρ c main_v1 (by decide)).trans (W1_main_v1 m ρ c)
theorem W1_main_v3 : (Gen.W1 m ρ c (Proc.devRef .tc main_v3) : S800000.Idx → BitVec 32) = edgeDst (m ((c.tc : Thread nD τ).loc main_arg1)) := by
  simp only [Gen.W1, Gen.hostOps0]; after_results_simp <;> rfl
theorem W2_main_v3 : (Gen.W2 m ρ c (Proc.devRef .tc main_v3) : S800000.Idx → BitVec 32) = edgeDst (m ((c.tc : Thread nD τ).loc main_arg1)) :=
  (Gen.W2_of_ne m ρ c main_v3 (by decide)).trans (W1_main_v3 m ρ c)
/-- Region 0's output array at its exit: what its write-backs leave. -/
theorem W2_main_v28 (H1 : FVec Ideal S50000x128 .f32) (hH1 : (Gen.dat0 (Gen.V1 m ρ) c).arrAt 6 cfg0.N = H1) :
    (Gen.W2 m ρ c (Proc.devRef .tc main_v28) : S50000x128.Idx → EReal) = H1 := (Gen.W2_arr m ρ c 6).trans hH1

/-! ## Region 1's operand arrays when it is entered: the second stretch of host operations over region 0's exit
    contents, `H1` standing for region 0's output array -/

theorem V3_main_v28 (H1 : FVec Ideal S50000x128 .f32) (hH1 : (Gen.dat0 (Gen.V1 m ρ) c).arrAt 6 cfg0.N = H1) :
    (Gen.V3 m ρ c main_v28 : S50000x128.Idx → EReal) = H1 := by
  simp only [Gen.V3, Gen.W3, Gen.hostOps1]; after_results_simp
  exact W2_main_v28 m ρ c H1 hH1
theorem V3_main_v48 (H1 : FVec Ideal S50000x128 .f32) (hH1 : (Gen.dat0 (Gen.V1 m ρ) c).arrAt 6 cfg0.N = H1) :
    (Gen.V3 m ρ c main_v48 : S50000x128.Idx → EReal) = aggregate H1 (m ((c.tc : Thread nD τ).loc main_arg1)) := by
  simp only [Gen.V3, Gen.W3, Gen.hostOps1]; after_results_simp
  rw [W2_main_v28 m ρ c H1 hH1, W2_main_v1 m ρ c, W2_main_v3 m ρ c]
  rfl
theorem V3_main_v49 : (Gen.V3 m ρ c main_v49 : S128x128.Idx → EReal) = foldedWeight (m ((c.tc : Thread nD τ).loc main_arg11)) (m ((c.tc : Thread nD τ).loc main_arg13)) (m ((c.tc : Thread nD τ).loc main_arg16)) := by
  simp only [Gen.V3, Gen.W3, Gen.hostOps1]; after_results_simp
  rw [W2_main_arg11 m ρ c, W2_main_arg13 m ρ c, W2_main_arg16 m ρ c]
  rfl
theorem V3_main_v51 : (Gen.V3 m ρ c main_v51 : S1x128.Idx → EReal) = foldedBias (m ((c.tc : Thread nD τ).loc main_arg12)) (m ((c.tc : Thread nD τ).loc main_arg15)) (m ((c.tc : Thread nD τ).loc main_arg13)) (m ((c.tc : Thread nD τ).loc main_arg16)) (m ((c.tc : Thread nD τ).loc main_arg14)) := by
  simp only [Gen.V3, Gen.W3, Gen.hostOps1]; after_results_simp
  rw [W2_main_arg12 m ρ c, W2_main_arg15 m ρ c, W2_main_arg13 m ρ c, W2_main_arg16 m ρ c, W2_main_arg14 m ρ c]
  rfl
theorem V3_main_v50 : (Gen.V3 m ρ c main_v50 : S128x128.Idx → EReal) = roundedWeight (m ((c.tc : Thread nD τ).loc main_arg17)) := by
  simp only [Gen.V3, Gen.W3, Gen.hostOps1]; after_results_simp
  rw [W2_main_arg17 m ρ c]
  rfl
theorem V3_main_v52 : (Gen.V3 m ρ c main_v52 : S1x128.Idx → EReal) = biasRow (m ((c.tc : Thread nD τ).loc main_arg18)) := by
  simp only [Gen.V3, Gen.W3, Gen.hostOps1]; after_results_simp
  rw [W2_main_arg18 m ρ c]
  rfl

/-- Window 0's array: region 0's output. -/
theorem V3_0 (H1 : FVec Ideal S50000x128 .f32) (hH1 : (Gen.dat0 (Gen.V1 m ρ) c).arrAt 6 cfg0.N = H1) : Gen.V3 m ρ c (Pipeline.arrRef spec1 0) = H1 := V3_main_v28 m ρ c H1 hH1
/-- Window 1's array: the neighbour aggregation of region 0's output. -/
theorem V3_1 (H1 : FVec Ideal S50000x128 .f32) (hH1 : (Gen.dat0 (Gen.V1 m ρ) c).arrAt 6 cfg0.N = H1) : Gen.V3 m ρ c (Pipeline.arrRef spec1 1) = aggregate H1 (m ((c.tc : Thread nD τ).loc main_arg1)) := V3_main_v48 m ρ c H1 hH1
/-- Window 2's array: the second layer's first weight, folded and rounded. -/
theorem V3_2 : Gen.V3 m ρ c (Pipeline.arrRef spec1 2) = foldedWeight (m ((c.tc : Thread nD τ).loc main_arg11)) (m ((c.tc : Thread nD τ).loc main_arg13)) (m ((c.tc : Thread nD τ).loc main_arg16)) := V3_main_v49 m ρ c
/-- Window 3's array: the second layer's first bias, folded, as a row. -/
theorem V3_3 : Gen.V3 m ρ c (Pipeline.arrRef spec1 3) = foldedBias (m ((c.tc : Thread nD τ).loc main_arg12)) (m ((c.tc : Thread nD τ).loc main_arg15)) (m ((c.tc : Thread nD τ).loc main_arg13)) (m ((c.tc : Thread nD τ).loc main_arg16)) (m ((c.tc : Thread nD τ).loc main_arg14)) := V3_main_v51 m ρ c
/-- Window 4's array: the second layer's second weight, rounded. -/
theorem V3_4 : Gen.V3 m ρ c (Pipeline.arrRef spec1 4) = roundedWeight (m ((c.tc : Thread nD τ).loc main_arg17)) := V3_main_v50 m ρ c
/-- Window 5's array: the second layer's second bias, as a row. -/
theorem V3_5 : Gen.V3 m ρ c (Pipeline.arrRef spec1 5) = biasRow (m ((c.tc : Thread nD τ).loc main_arg18)) := V3_main_v52 m ρ c

/-! ## The result: the last three stretches of host operations over region 1's exit contents, `H2` standing for
    region 1's output array -/

theorem W3_main_arg2 : Gen.W3 m ρ c (Proc.devRef .tc main_arg2) = (m ((c.tc : Thread nD τ).loc main_arg2)) := by
  simp only [Gen.W3, Gen.hostOps1]; after_results_simp
  exact W2_main_arg2 m ρ c
theorem W4_main_arg2 : Gen.W4 m ρ c (Proc.devRef .tc main_arg2) = (m ((c.tc : Thread nD τ).loc main_arg2)) :=
  (Gen.W4_of_ne m ρ c main_arg2 (by decide)).trans (W3_main_arg2 m ρ c)
theorem W3_main_arg19 : Gen.W3 m ρ c (Proc.devRef .tc main_arg19) = (m ((c.tc : Thread nD τ).loc main_arg19)) := by
  simp only [Gen.W3, Gen.hostOps1]; after_results_simp
  exact W2_main_arg19 m ρ c
theorem W4_main_arg19 : Gen.W4 m ρ c (Proc.devRef .tc main_arg19) = (m ((c.tc : Thread nD τ).loc main_arg19)) :=
  (Gen.W4_of_ne m ρ c main_arg19 (by decide)).trans (W3_main_arg19 m ρ c)
theorem W3_main_arg20 : Gen.W3 m ρ c (Proc.devRef .tc main_arg20) = (m ((c.tc : Thread nD τ).loc main_arg20)) := by
  simp only [Gen.W3, Gen.hostOps1]; after_results_simp
  exact W2_main_arg20 m ρ c
theorem W4_main_arg20 : Gen.W4 m ρ c (Proc.devRef .tc main_arg20) = (m ((c.tc : Thread nD τ).loc main_arg20)) :=
  (Gen.W4_of_ne m ρ c main_arg20 (by decide)).trans (W3_main_arg20 m ρ c)
theorem W3_main_arg21 : Gen.W3 m ρ c (Proc.devRef .tc main_arg21) = (m ((c.tc : Thread nD τ).loc main_arg21)) := by
  simp only [Gen.W3, Gen.hostOps1]; after_results_simp
  exact W2_main_arg21 m ρ c
theorem W4_main_arg21 : Gen.W4 m ρ c (Proc.devRef .tc main_arg21) = (m ((c.tc : Thread nD τ).loc main_arg21)) :=
  (Gen.W4_of_ne m ρ c main_arg21 (by decide)).trans (W3_main_arg21 m ρ c)
theorem W3_main_arg22 : Gen.W3 m ρ c (Proc.devRef .tc main_arg22) = (m ((c.tc : Thread nD τ).loc main_arg22)) := by
  simp only [Gen.W3, Gen.hostOps1]; after_results_simp
  exact W2_main_arg22 m ρ c
theorem W4_main_arg22 : Gen.W4 m ρ c (Proc.devRef .tc main_arg22) = (m ((c.tc : Thread nD τ).loc main_arg22)) :=
  (Gen.W4_of_ne m ρ c main_arg22 (by decide)).trans (W3_main_arg22 m ρ c)
/-- Region 1's output array at its exit: what its write-backs leave. -/
theorem W4_main_v53 (H2 : FVec Ideal S50000x128 .f32) (hH2 : (Gen.dat1 (Gen.V3 m ρ) c).arrAt 6 cfg1.N = H2) :
    (Gen.W4 m ρ c (Proc.devRef .tc main_v53) : S50000x128.Idx → EReal) = H2 := (Gen.W4_arr m ρ c 6).trans hH2

/-- The result buffer at the last boundary: the readout of region 1's output. -/
theorem W7_main_v65 (H2 : FVec Ideal S50000x128 .f32) (hH2 : (Gen.dat1 (Gen.V3 m ρ) c).arrAt 6 cfg1.N = H2) :
    (Gen.W7 m ρ c (Proc.devRef .tc main_v65) : S128x2.Idx → EReal)
      = readout H2 (m ((c.tc : Thread nD τ).loc main_arg2)) (m ((c.tc : Thread nD τ).loc main_arg19)) (m ((c.tc : Thread nD τ).loc main_arg20)) (m ((c.tc : Thread nD τ).loc main_arg21)) (m ((c.tc : Thread nD τ).loc main_arg22)) := by
  simp only [Gen.W7, Gen.W6, Gen.W5, Gen.hostOps2_2, Gen.hostOps2_1, Gen.hostOps2]; after_results_simp
  rw [W4_main_v53 m ρ c H2 hH2, W4_main_arg2 m ρ c, W4_main_arg19 m ρ c, W4_main_arg20 m ρ c, W4_main_arg21 m ρ c, W4_main_arg22 m ρ c]
  rfl

end Cert.KernelIdeal.HostRead

end
-- ==== Proof.Blocks1.lean ====
/-
  The second layer's result array, whole: the ten blocks of 5000 rows tile the 50000 rows.

  Grid point `t` reads rows `5000·t … 5000·t + 4999` of the node features and of the neighbour sums, and the
  whole weight matrices and biases, and writes the same rows of the result. So the result array, whatever the
  arrays the region finds on entry, is the layer's whole-array function of them.
-/
import proofs.«116654_j81243601371608_2_alg».proof.Proof.Gen.KernelIdeal.Frame
import proofs.«116654_j81243601371608_2_alg».proof.Proof.Payload

set_option maxRecDepth 16384

noncomputable section

namespace Cert.KernelIdeal.Region1

open Idealize.ShloMosaic Idealize.ShloMosaic.ValueIdx Idealize.ShloMosaic.TcCoe Idealize.SL.Sem
open Cert.KernelIdeal Cert.KernelIdeal.Gen Cert.KernelIdeal.BlockValue Cert.Proof
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the two row operands and the result move with the
    point along the rows; the weights and biases stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem row_lt (t : Fin cfg1.N) (p : Fin 5000) : 5000 * t.val + p.val < 50000 := by
  have ht : t.val < 10 := t.isLt
  have hp := p.isLt
  omega

/-- Block `t` of the node features at its row `p` is row `5000·t + p` of the array. -/
theorem rows0 (c : Dev nD) (t : Fin cfg1.N) (p : Fin 5000) (j : Fin 128) :
    iblk1 V c 0 t (ix2 p j) = V c (Pipeline.arrRef spec1 0) (ix2 (⟨5000 * t.val + p.val, row_lt t p⟩ : Fin 50000) j) := by
  obtain ⟨e0, e1, -⟩ := idx_facts t
  show V c (Pipeline.arrRef spec1 0) (((cfg1.win 0).blk t).view.emb (ix2 p j)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * j.val = j.val; omega

/-- Block `t` of the neighbour sums at its row `p` is row `5000·t + p` of the array. -/
theorem rows1 (c : Dev nD) (t : Fin cfg1.N) (p : Fin 5000) (j : Fin 128) :
    iblk1 V c 1 t (ix2 p j) = V c (Pipeline.arrRef spec1 1) (ix2 (⟨5000 * t.val + p.val, row_lt t p⟩ : Fin 50000) j) := by
  obtain ⟨-, -, e0, e1, -⟩ := idx_facts t
  show V c (Pipeline.arrRef spec1 1) (((cfg1.win 1).blk t).view.emb (ix2 p j)) = _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * j.val = j.val; omega

/-- The first weight matrix's one block is the matrix. -/
theorem whole2 (c : Dev nD) (t : Fin cfg1.N) (j k : Fin 128) :
    iblk1 V c 2 t (ix2 j k) = V c (Pipeline.arrRef spec1 2) (ix2 j k) := by
  obtain ⟨-, -, -, -, e0, e1, -⟩ := idx_facts t
  show V c (Pipeline.arrRef spec1 2) (((cfg1.win 2).blk t).view.emb (ix2 j k)) = _
  refine congrArg _ (funext fun a => Fin.ext ?_)
  match a with
  | ⟨0, _⟩ => show win1_2.index t (0 : Fin 2) * 128 + 1 * j.val = j.val; omega
  | ⟨1, _⟩ => show win1_2.index t (1 : Fin 2) * 128 + 1 * k.val = k.val; omega

/-- The first bias's one block is the bias row. -/
theorem whole3 (c : Dev nD) (t : Fin cfg1.N) (k : Fin 128) :
    iblk1 V c 3 t (ix2 (0 : Fin 1) k) = V c (Pipeline.arrRef spec1 3) (ix2 (0 : Fin 1) k) := by
  obtain ⟨-, -, -, -, -, -, e0, e1, -⟩ := idx_facts t
  show V c (Pipeline.arrRef spec1 3) (((cfg1.win 3).blk t).view.emb (ix2 (0 : Fin 1) k)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The second weight matrix's one block is the matrix. -/
theorem whole4 (c : Dev nD) (t : Fin cfg1.N) (j k : Fin 128) :
    iblk1 V c 4 t (ix2 j k) = V c (Pipeline.arrRef spec1 4) (ix2 j k) := by
  obtain ⟨-, -, -, -, -, -, -, -, e0, e1, -⟩ := idx_facts t
  show V c (Pipeline.arrRef spec1 4) (((cfg1.win 4).blk t).view.emb (ix2 j k)) = _
  refine congrArg _ (funext fun a => Fin.ext ?_)
  match a with
  | ⟨0, _⟩ => show win1_4.index t (0 : Fin 2) * 128 + 1 * j.val = j.val; omega
  | ⟨1, _⟩ => show win1_4.index t (1 : Fin 2) * 128 + 1 * k.val = k.val; omega

/-- The second bias's one block is the bias row. -/
theorem whole5 (c : Dev nD) (t : Fin cfg1.N) (k : Fin 128) :
    iblk1 V c 5 t (ix2 (0 : Fin 1) k) = V c (Pipeline.arrRef spec1 5) (ix2 (0 : Fin 1) k) := by
  obtain ⟨-, -, -, -, -, -, -, -, -, -, e0, e1, -⟩ := idx_facts t
  show V c (Pipeline.arrRef spec1 5) (((cfg1.win 5).blk t).view.emb (ix2 (0 : Fin 1) k)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-- Row `p`, column `q` of the result's block `t` sits at row `5000·t + p`, column `q` of the result array. -/
theorem emb6 (t : Fin cfg1.N) (p : Fin 5000) (q : Fin 128) :
    ((cfg1.win 6).blk t).view.emb (ix2 p q) = ix2 (⟨5000 * t.val + p.val, row_lt t p⟩ : Fin 50000) q := by
  obtain ⟨-, -, -, -, -, -, -, -, -, -, -, -, e0, e1⟩ := idx_facts t
  funext a; apply Fin.ext
  match a with
  | ⟨0, _⟩ => show win1_6.index t (0 : Fin 2) * 5000 + 1 * p.val = 5000 * t.val + p.val; omega
  | ⟨1, _⟩ => show win1_6.index t (1 : Fin 2) * 128 + 1 * q.val = q.val; omega

set_option maxHeartbeats 2000000 in
/-- WHAT POINT `t` WRITES BACK is block `t` of the layer's whole-array function of the arrays the region finds. -/
theorem flushed_eq (c : Dev nD) (t : Fin cfg1.N) :
    (dat1 V c).flushed 6 t = ((cfg1.win 6).blk t).view.read (Elt Ideal)
      (kerLayer (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (iblk1 V c 3 t) (iblk1 V c 4 t) (iblk1 V c 5 t) (ix2 p q)
    = kerLayer (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (((cfg1.win 6).blk t).view.emb (ix2 p q))
  rw [emb6 t p q, kerLayer_at]
  refine (pay1_apply (iblk1 V c 0 t) (iblk1 V c 1 t) (iblk1 V c 2 t) (iblk1 V c 3 t) (iblk1 V c 4 t) (iblk1 V c 5 t) p q).trans ?_
  simp only [rows0 V c t, rows1 V c t, whole2 V c t, whole3 V c t, whole4 V c t, whole5 V c t]

/-- An index of the result array is in point `t`'s block iff each coordinate is in the block's range. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v53).slice (win1_6.rect t)).set ↔ _
  rw [View.set_slice_whole, Rect.mem_set_unit]
  exact Iff.rfl

/-- Every row of the result is in the block of the point `row / 5000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have ht : (i 0).val / 5000 < 10 := by omega
  refine ⟨⟨(i 0).val / 5000, ht⟩, flush1_6 _, ?_⟩
  obtain ⟨-, -, -, -, -, -, -, -, -, -, -, -, e0, e1⟩ := idx_facts ⟨(i 0).val / 5000, ht⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    have e0' : win1_6.index ⟨(i 0).val / 5000, ht⟩ (0 : Fin 2) = (i 0).val / 5000 := e0
    omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    omega

/-- THE RESULT ARRAY after the region: the layer's whole-array function of the arrays the region finds on entry. -/
theorem final (c : Dev nD) :
    (dat1 V c).arrAt 6 cfg1.N
      = kerLayer (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 _ (fun t _ => flushed_eq V c t) cover

end Cert.KernelIdeal.Region1

end
-- ==== Proof.KernelValue2.lean ====
/-
  The kernel program's result, and the reference's, as one function of the arguments.

  The second region finds on entry the first layer's result, its neighbour sums, and the second layer's
  prepared operands, and leaves the second layer's whole-array function of them — the reference's second layer,
  the first layer's result being real. The host then pools the node rows per graph and applies the last two
  dense maps: the same operations in both programs. The reference's run ends at the same nested term of its own
  arguments, which agree with the kernel program's.
-/
import proofs.«116654_j81243601371608_2_alg».proof.Proof.KernelValue1
import proofs.«116654_j81243601371608_2_alg».proof.Proof.KernelHostTail
import proofs.«116654_j81243601371608_2_alg».proof.Proof.Blocks1
import proofs.«116654_j81243601371608_2_alg».proof.Proof.RefRun

set_option maxHeartbeats 400000

noncomputable section

namespace Cert.KernelIdeal.Value2

open Idealize.ShloMosaic Idealize.ShloMosaic.ValueIdx Idealize.ShloMosaic.TcCoe Idealize.SL.Sem Cert.Proof
open Cert.KernelIdeal Cert.KernelIdeal.Gen
open Cert.ReferenceIdeal.RefValue (layer agg tail)

theorem readout_eq (H : FVec Ideal S50000x128 .f32) (batch : IVec S50000 32) (W1 : FVec Ideal S128x128 .f32)
    (b1 : FVec Ideal S128 .f32) (W2 : FVec Ideal S128x2 .f32) (b2 : FVec Ideal S2 .f32) :
    HostRead.readout H batch W1 b1 W2 b2 = tail H batch W1 b1 W2 b2 := rfl

variable (m : (ℓ : Loc nD τ sig) → Buf (Elt Ideal) ℓ) (ρ : Dev nD → PrngReg) (c : Dev nD)

/-- The common value of the two programs' results: the readout of the second layer of the first layer of the
    node features. -/
def result : FVec Ideal S128x2 .f32 :=
  tail (layer (layer (m ((c.tc : Thread Cert.KernelIdeal.nD Cert.KernelIdeal.τ).loc Cert.KernelIdeal.main_arg0)) (agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (agg (layer (m ((c.tc : Thread Cert.KernelIdeal.nD Cert.KernelIdeal.τ).loc Cert.KernelIdeal.main_arg0)) (agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg1))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))

/-- THE SECOND REGION'S RESULT ARRAY is the reference's second layer of the first. -/
theorem region1_value (D : PreFacts.Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) :
    (Gen.dat1 (Gen.V3 m ρ) c).arrAt 6 cfg1.N
      = layer (layer (m ((c.tc : Thread Cert.KernelIdeal.nD Cert.KernelIdeal.τ).loc Cert.KernelIdeal.main_arg0)) (agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (agg (layer (m ((c.tc : Thread Cert.KernelIdeal.nD Cert.KernelIdeal.τ).loc Cert.KernelIdeal.main_arg0)) (agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg1))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := by
  have h1 := Value1.region0_value m ρ c D
  rw [Region1.final (Gen.V3 m ρ) c, HostRead.V3_0 m ρ c _ h1, HostRead.V3_1 m ρ c _ h1, HostRead.V3_2, HostRead.V3_3,
    HostRead.V3_4, HostRead.V3_5]
  exact Value1.layer_of_prepared _ _ _ _ _ _ _ _ _ _
    (Value1.layer_real _ _ _ _ _ _ _ _ _ _ D.real0 D.real3 D.real4 D.real5 D.real6 D.real7 D.real8 D.nonneg8 D.real9 D.real10)
    D.real11 D.real12 D.real13 D.real14 D.real15 D.real16 D.nonneg16

/-- THE KERNEL PROGRAM'S RESULT BUFFER at the end of its run. -/
theorem kernel_value (D : PreFacts.Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) :
    Gen.W7 m ρ c (Proc.devRef .tc main_v65) = result m c := by
  rw [HostRead.W7_main_v65 m ρ c _ (region1_value m ρ c D), readout_eq]
  rfl

/-- THE REFERENCE'S RESULT at the end of its run, from arguments that agree with the kernel program's. -/
theorem ref_value (m' : (ℓ : Loc Cert.ReferenceIdeal.nD Cert.ReferenceIdeal.τ Cert.ReferenceIdeal.sig) → Buf (Elt Ideal) ℓ)
    (hag : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))) :
    Cert.ReferenceIdeal.Value.res_main_v87 m' c = result m c := by
  obtain ⟨e0, e1, e2, e3, e4, e5, e6, e7, e8, e9, e10, e11, e12, e13, e14, e15, e16, e17, e18, e19, e20, e21, e22⟩ := hag
  rw [Cert.ReferenceIdeal.Read.val_main_v87_eq, Cert.ReferenceIdeal.RefValue.result_eq, e0, e1, e2, e3, e4, e5, e6, e7, e8, e9, e10, e11, e12, e13, e14,
    e15, e16, e17, e18, e19, e20, e21, e22]
  rfl

end Cert.KernelIdeal.Value2

end
-- ==== Proof.PreFactsMem.lean ====
/-
  The decoded precondition, stated for a memory. The precondition of the idealized kernel (and of the idealized
  reference) says: on every device, the predicate of the argument arrays the memory holds is all ones. The arrays
  are the memory's contents at the program's argument locations, so the decoded facts hold of those contents:
  every entry of each float argument is a real, and the entries of arguments 8 and 16 are nonnegative.
-/
import proofs.«116654_j81243601371608_2_alg».proof.Defs
import proofs.«116654_j81243601371608_2_alg».proof.Proof.PreFacts

noncomputable section

namespace Cert.Proof.PreFacts

open Idealize.ShloMosaic Idealize.SL.Sem Cert.Pre_finite_inputs

/-- The decoded facts for a memory of which the precondition holds, on each device: the arrays are the memory's
    contents at the program's argument locations. -/
theorem of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Decoded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)) :=
  decode _ _ _ _ _ _ _ _ _ _ _ _ _ _ _ _ _ _ _ _ _ _ _ (hpre c)

/-- The decoded facts for a memory of which the precondition holds, on each device: the arrays are the memory's
    contents at the program's argument locations. -/
theorem of_pre_reference [Cert.Pre_finite_inputs.Facts]
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    Decoded
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17))
      (m ((c.tc : Thread Cert.ReferenceIdeal.nD Cert.ReferenceIdeal.τ).loc Cert.ReferenceIdeal.main_arg18))
      (m ((c.tc : Thread Cert.ReferenceIdeal.nD Cert.ReferenceIdeal.τ).loc Cert.ReferenceIdeal.main_arg19))
      (m ((c.tc : Thread Cert.ReferenceIdeal.nD Cert.ReferenceIdeal.τ).loc Cert.ReferenceIdeal.main_arg20))
      (m ((c.tc : Thread Cert.ReferenceIdeal.nD Cert.ReferenceIdeal.τ).loc Cert.ReferenceIdeal.main_arg21))
      (m ((c.tc : Thread Cert.ReferenceIdeal.nD Cert.ReferenceIdeal.τ).loc Cert.ReferenceIdeal.main_arg22)) :=
  decode _ _ _ _ _ _ _ _ _ _ _ _ _ _ _ _ _ _ _ _ _ _ _ (hpre c)

end Cert.Proof.PreFacts

end
-- ==== Proof.lean ====
/-
  Two graph-isomorphism-network layers followed by a per-graph readout: the kernel program against its reference,
  on the extended reals.

  Each layer sends the node features `h` to `relu (relu (bn ((h + agg h) · w + b)) · w' + b')`, where `agg h` sums,
  for every node, the rows of its in-neighbours along the edge list, and `bn y = (y − μ) · (σ² + ε)^(−1/2) · γ + β`
  is the evaluation-mode batch normalisation, column by column. The reference computes exactly that with host
  operations. The kernel program folds the normalisation into the first dense map on the host —
  weight `w · γ(σ² + ε)^(−1/2)`, bias `(b − μ) · γ(σ² + ε)^(−1/2) + β` — and runs the two dense maps and the two
  rectifiers of a layer in one kernel over blocks of 5000 node rows; the neighbour sums, the per-graph pooling
  and the last two dense maps are the same host operations in both programs.

  The two spellings of the hidden pre-activation agree by distributivity, which on the extended reals needs
  every quantity finite: the inputs are finite by the precondition, the neighbour sums and the first layer's
  result are then finite sums and products of finite numbers, and `(σ² + ε)^(−1/2)` is finite because the
  precondition also asks the running variances to be non-negative and `ε > 0`.

  The frames are the generated ones (the reference's is its generated run with the result dropped); the
  idealization rewrote nothing, so `preserves` is trivial; `algebraic` pairs the kernel program's run, its result
  buffer read back through the host operations and the two regions' block covers, with the reference's run.
-/
import proofs.«116654_j81243601371608_2_alg».proof.Defs
import proofs.«116654_j81243601371608_2_alg».proof.Proof.Gen.Kernel
import proofs.«116654_j81243601371608_2_alg».proof.Proof.Gen.Kernel.Skeleton
import proofs.«116654_j81243601371608_2_alg».proof.Proof.Gen.Kernel.Launch
import proofs.«116654_j81243601371608_2_alg».proof.Proof.Gen.Kernel.Points
import proofs.«116654_j81243601371608_2_alg».proof.Proof.Gen.Kernel.Frame
import proofs.«116654_j81243601371608_2_alg».proof.Proof.Gen.KernelIdeal
import proofs.«116654_j81243601371608_2_alg».proof.Proof.Gen.KernelIdeal.Skeleton
import proofs.«116654_j81243601371608_2_alg».proof.Proof.Gen.KernelIdeal.Launch
import proofs.«116654_j81243601371608_2_alg».proof.Proof.Gen.KernelIdeal.Points
import proofs.«116654_j81243601371608_2_alg».proof.Proof.Gen.KernelIdeal.Frame
import proofs.«116654_j81243601371608_2_alg».proof.Proof.Gen.ReferenceIdeal
import proofs.«116654_j81243601371608_2_alg».proof.Proof.Gen.ReferenceIdeal.Run
import proofs.«116654_j81243601371608_2_alg».proof.Proof.Gen.ReferenceIdeal.Read
import proofs.«116654_j81243601371608_2_alg».proof.Proof.Gen.Pre_finite_inputs
import proofs.«116654_j81243601371608_2_alg».proof.Proof.KernelRun
import proofs.«116654_j81243601371608_2_alg».proof.Proof.KernelValue2
import proofs.«116654_j81243601371608_2_alg».proof.Proof.PreFactsMem
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.KernelIdeal.Value2.result m c,
     (θ_run (Cert.KernelIdeal.defs (F := Ideal)) _ _).mono
       (fun _ h c => ⟨(h c).1.trans (Cert.KernelIdeal.Value2.kernel_value m ρ c (Cert.Proof.PreFacts.of_pre m hpre c)), (h c).2⟩)
       (Cert.KernelIdeal.RunValue.run_value (F := Ideal) m ρ),
     (θ_run (Cert.ReferenceIdeal.defs (F := Ideal)) _ _).mono
       (fun _ h c => ⟨(h c).1.trans (Cert.KernelIdeal.Value2.ref_value m c m' (hagree c)), (h c).2⟩)
       (Cert.ReferenceIdeal.Value.run (F := Ideal) m' ρ')⟩⟩

end Cert.Proof

end
